-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x8192 : Shape := ⟨3, ![64, 64, 8192]⟩
abbrev S64x8192 : Shape := ⟨2, ![64, 8192]⟩
abbrev S64 : Shape := ⟨1, ![64]⟩
abbrev S_ : Shape := ⟨0, ![]⟩

class Facts : Prop where
  bcast_S_S64x64x8192 : S_.BroadcastsInDim S64x64x8192 (![] : Fin 0 → Fin S64x64x8192.rank)
  reducesTo_S64x64x8192_S_d0_1_2 : S64x64x8192.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S64x64x8192 .f32) (main_arg1 : IVec S64x8192 32) (main_arg2 : IVec S64 32) : IVec S_ 1 :=
  let main_v0 : FVec F S64x64x8192 .f32 := Host.absf main_arg0
  let main_cst : FVec F S_ .f32 := constant S_ .f32 0x7F800000#32
  let main_v1 : FVec F S64x64x8192 .f32 := broadcastInDim S64x64x8192 ![] bcast_S_S64x64x8192 main_cst
  let main_v2 : IVec S64x64x8192 1 := cmpf .olt main_v0 main_v1
  let main_c : IVec S_ 1 := constantI S_ 1 1#1
  let main_v3 : IVec S_ 1 := (fun x v => Host.reduce IntOp.andi x v reducesTo_S64x64x8192_S_d0_1_2 h_S_) main_v2 main_c
  let main_c_0 : IVec S_ 32 := constantI S_ 32 8192#32
  let main_v4 : IVec S64 32 := broadcastInDim S64 ![] bcast_S_S64 main_c_0
  let main_v5 : IVec S64 1 := cmpi .sle main_arg2 main_v4
  let main_c_1 : IVec S_ 1 := constantI S_ 1 1#1
  let main_v6 : IVec S_ 1 := (fun x v => Host.reduce IntOp.andi x v reducesTo_S64_S_d0 h_S_) main_v5 main_c_1
  let main_v7 : IVec S_ 1 := andi main_v3 main_v6
  main_v7
-- ==== Kernel.lean ====
abbrev S64x64x8192 : Shape := ⟨3, ![64, 64, 8192]⟩
abbrev S64x8192 : Shape := ⟨2, ![64, 8192]⟩
abbrev S64 : Shape := ⟨1, ![64]⟩
abbrev S64x1x1 : Shape := ⟨3, ![64, 1, 1]⟩
abbrev S32x64x512 : Shape := ⟨3, ![32, 64, 512]⟩
abbrev S32x1x1 : Shape := ⟨3, ![32, 1, 1]⟩
abbrev S32x64 : Shape := ⟨2, ![32, 64]⟩
abbrev S32x64x1 : Shape := ⟨3, ![32, 64, 1]⟩
abbrev S32x1 : Shape := ⟨2, ![32, 1]⟩
abbrev S_ : Shape := ⟨0, ![]⟩

abbrev nBuf : Space → Nat
  | .hbm => 21
  | .vmem => 16
  | .smem => 0
  | _ => 0

abbrev bufTy : (tb : Table) → Fin (tcTables nBuf tb) → BufTy
  | .hbm, ⟨0, _⟩ => ⟨S64x64x8192, .f32⟩
  | .hbm, ⟨1, _⟩ => ⟨S64x8192, .i32⟩
  | .hbm, ⟨2, _⟩ => ⟨S64, .i32⟩
  | .hbm, ⟨3, _⟩ => ⟨S64x1x1, .i32⟩
  | .hbm, ⟨4, _⟩ => ⟨S64x1x1, .f32⟩
  | .hbm, ⟨5, _⟩ => ⟨S64x1x1, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64x1x1, .f32⟩
  | .hbm, ⟨11, _⟩ => ⟨S64x1x1, .f32⟩
  | .hbm, ⟨12, _⟩ => ⟨S64x1x1, .f32⟩
  | .hbm, ⟨13, _⟩ => ⟨S64x1x1, .f32⟩
  | .hbm, ⟨14, _⟩ => ⟨S64x1x1, .f32⟩
  | .hbm, ⟨15, _⟩ => ⟨S_, .f32⟩
  | .hbm, ⟨16, _⟩ => ⟨S64x1x1, .f32⟩
  | .hbm, ⟨17, _⟩ => ⟨S64x1x1, .f32⟩
  | .hbm, ⟨18, _⟩ => ⟨S64x1x1, .f32⟩
  | .hbm, ⟨19, _⟩ => ⟨S64x1x1, .f32⟩
  | .hbm, ⟨20, _⟩ => ⟨S64x64x8192, .f32⟩
  | .local _ .vmem, ⟨0, _⟩ => ⟨S32x64x512, .f32⟩
  | .local _ .vmem, ⟨1, _⟩ => ⟨S32x64x512, .f32⟩
  | .local _ .vmem, ⟨2, _⟩ => ⟨S32x1x1, .i32⟩
  | .local _ .vmem, ⟨3, _⟩ => ⟨S32x1x1, .i32⟩
  | .local _ .vmem, ⟨4, _⟩ => ⟨S32x1x1, .f32⟩
  | .local _ .vmem, ⟨5, _⟩ => ⟨S32x1x1, .f32⟩
  | .local _ .vmem, ⟨6, _⟩ => ⟨S32x1x1, .f32⟩
  | .local _ .vmem, ⟨7, _⟩ => ⟨S32x1x1, .f32⟩
  | .local _ .vmem, ⟨8, _⟩ => ⟨S32x64x512, .f32⟩
  | .local _ .vmem, ⟨9, _⟩ => ⟨S32x64x512, .f32⟩
  | .local _ .vmem, ⟨10, _⟩ => ⟨S32x1x1, .f32⟩
  | .local _ .vmem, ⟨11, _⟩ => ⟨S32x1x1, .f32⟩
  | .local _ .vmem, ⟨12, _⟩ => ⟨S32x1x1, .f32⟩
  | .local _ .vmem, ⟨13, _⟩ => ⟨S32x1x1, .f32⟩
  | .local _ .vmem, ⟨14, _⟩ => ⟨S32x64x512, .f32⟩
  | .local _ .vmem, ⟨15, _⟩ => ⟨S32x64x512, .f32⟩
  | _, _ => ⟨S64x64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S32x64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S32x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S32x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S32x64x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S64_S64x1x1 : S64.ShapeCasts S64x1x1
  inb_S32x1x1_S32x1x1_0_0_0 : ∀ a, (![0, 0, 0] : Fin 3 → Nat) a + S32x1x1.size a ≤ S32x1x1.size a
  h_S32x1x1 : 0 < S32x1x1.numel
  inb_S32x64x512_S32x64x512_0_0_0 : ∀ a, (![0, 0, 0] : Fin 3 → Nat) a + S32x64x512.size a ≤ S32x64x512.size a
  h_S32x64x512 : 0 < S32x64x512.numel
  shapeCasts_S32x1x1_S32x1x1 : S32x1x1.ShapeCasts S32x1x1
  iota_S32x64x512_d2_w32 : S32x64x512.Iotas .tc 32 [2]
  broadcasts_S32x1x1_S32x64x512 : S32x1x1.Broadcasts S32x64x512
  natLt_1_32 : 1 < 32
  reduces_S32x64x512_S32x64 : S32x64x512.Reduces [2] S32x64
  shapeCasts_S32x64_S32x64x1 : S32x64.ShapeCasts S32x64x1
  reduces_S32x64x1_S32x1 : S32x64x1.Reduces [1] S32x1
  shapeCasts_S32x1_S32x1x1 : S32x1.ShapeCasts S32x1x1
  bcast_S_S64 : S_.BroadcastsInDim S64 (![] : Fin 0 → Fin S64.rank)
  bcast_S_S64x1x1 : S_.BroadcastsInDim S64x1x1 (![] : Fin 0 → Fin S64x1x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x512.size a ≤ S64x64x8192.size a
  hwx0_0 : ∀ i : grid0.Coords, EltTy.bits .f32 = 32 ∨ (Rect.block (s := S64x64x8192) S32x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1x1.size a ≤ S64x1x1.size a
  hwx0_1 : ∀ i : grid0.Coords, EltTy.bits .i32 = 32 ∨ (Rect.block (s := S64x1x1) S32x1x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1x1.size a ≤ S64x1x1.size a
  hwx0_2 : ∀ i : grid0.Coords, EltTy.bits .f32 = 32 ∨ (Rect.block (s := S64x1x1) S32x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1x1.size a ≤ S64x1x1.size a
  hwx0_3 : ∀ i : grid0.Coords, EltTy.bits .f32 = 32 ∨ (Rect.block (s := S64x1x1) S32x1x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x64x512.size a ≤ S64x64x8192.size a
  hwx1_0 : ∀ i : grid1.Coords, EltTy.bits .f32 = 32 ∨ (Rect.block (s := S64x64x8192) S32x64x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x1x1.size a ≤ S64x1x1.size a
  hwx1_1 : ∀ i : grid1.Coords, EltTy.bits .f32 = 32 ∨ (Rect.block (s := S64x1x1) S32x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x1x1.size a ≤ S64x1x1.size a
  hwx1_2 : ∀ i : grid1.Coords, EltTy.bits .f32 = 32 ∨ (Rect.block (s := S64x1x1) S32x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x64x512.size a ≤ S64x64x8192.size a
  hwx1_3 : ∀ i : grid1.Coords, EltTy.bits .f32 = 32 ∨ (Rect.block (s := S64x64x8192) S32x64x512.size (cc1_transform_3 i) (hinb1_3 i)).WholeWords (EltTy.packing .f32)

variable [Facts₀]

abbrev win0_0 : Pipeline.Window sig grid0 :=
  Pipeline.Window.ofSpec (Memref.whole main_arg0) S32x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S32x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S32x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S32x64x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S32x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S32x1x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S32x64x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x64x8192 : Shape := ⟨3, ![64, 64, 8192]⟩
abbrev S64x8192 : Shape := ⟨2, ![64, 8192]⟩
abbrev S64 : Shape := ⟨1, ![64]⟩
abbrev S8192 : Shape := ⟨1, ![8192]⟩
abbrev S1x8192 : Shape := ⟨2, ![1, 8192]⟩
abbrev S64x1 : Shape := ⟨2, ![64, 1]⟩
abbrev S64x1x8192 : Shape := ⟨3, ![64, 1, 8192]⟩
abbrev S_ : Shape := ⟨0, ![]⟩
abbrev S64x1x1 : Shape := ⟨3, ![64, 1, 1]⟩

abbrev nBuf : Space → Nat
  | .hbm => 42
  | .vmem => 0
  | .smem => 0
  | _ => 0

abbrev bufTy : (tb : Table) → Fin (tcTables nBuf tb) → BufTy
  | .hbm, ⟨0, _⟩ => ⟨S64x64x8192, .f32⟩
  | .hbm, ⟨1, _⟩ => ⟨S64x8192, .i32⟩
  | .hbm, ⟨2, _⟩ => ⟨S64, .i32⟩
  | .hbm, ⟨3, _⟩ => ⟨S8192, .i32⟩
  | .hbm, ⟨4, _⟩ => ⟨S1x8192, .i32⟩
  | .hbm, ⟨5, _⟩ => ⟨S64x1, .i32⟩
  | .hbm, ⟨6, _⟩ => ⟨S64x8192, .i32⟩
  | .hbm, ⟨7, _⟩ => ⟨S64x8192, .i32⟩
  | .hbm, ⟨8, _⟩ => ⟨S64x8192, .i1⟩
  | .hbm, ⟨9, _⟩ => ⟨S64x1x8192, .i1⟩
  | .hbm, ⟨10, _⟩ => ⟨S64x1x8192, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64x64x8192, .f32⟩
  | .hbm, ⟨16, _⟩ => ⟨S64x64x8192, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S64x1x1, .f32⟩
  | .hbm, ⟨21, _⟩ => ⟨S64x64x8192, .f32⟩
  | .hbm, ⟨22, _⟩ => ⟨S64x64x8192, .f32⟩
  | .hbm, ⟨23, _⟩ => ⟨S64x64x8192, .f32⟩
  | .hbm, ⟨24, _⟩ => ⟨S64x64x8192, .f32⟩
  | .hbm, ⟨25, _⟩ => ⟨S64x64x8192, .f32⟩
  | .hbm, ⟨26, _⟩ => ⟨S_, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S64, .f32⟩
  | .hbm, ⟨32, _⟩ => ⟨S64, .f32⟩
  | .hbm, ⟨33, _⟩ => ⟨S64x1x1, .f32⟩
  | .hbm, ⟨34, _⟩ => ⟨S64x64x8192, .f32⟩
  | .hbm, ⟨35, _⟩ => ⟨S64x64x8192, .f32⟩
  | .hbm, ⟨36, _⟩ => ⟨S64x1x1, .f32⟩
  | .hbm, ⟨37, _⟩ => ⟨S_, .f32⟩
  | .hbm, ⟨38, _⟩ => ⟨S64x1x1, .f32⟩
  | .hbm, ⟨39, _⟩ => ⟨S64x1x1, .f32⟩
  | .hbm, ⟨40, _⟩ => ⟨S64x64x8192, .f32⟩
  | .hbm, ⟨41, _⟩ => ⟨S64x64x8192, .f32⟩
  | _, _ => ⟨S64x64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S64_S64x1_0 : S64.BroadcastsInDim S64x1 (![0] : Fin 1 → Fin S64x1.rank)
  bcast_S1x8192_S64x8192_0_1 : S1x8192.BroadcastsInDim S64x8192 (![0, 1] : Fin 2 → Fin S64x8192.rank)
  bcast_S64x1_S64x8192_0_1 : S64x1.BroadcastsInDim S64x8192 (![0, 1] : Fin 2 → Fin S64x8192.rank)
  bcast_S64x8192_S64x1x8192_0_2 : S64x8192.BroadcastsInDim S64x1x8192 (![0, 2] : Fin 2 → Fin S64x1x8192.rank)
  bcast_S_S64 : S_.BroadcastsInDim S64 (![] : Fin 0 → Fin S64.rank)
  bcast_S64x1x8192_S64x64x8192_0_1_2 : S64x1x8192.BroadcastsInDim S64x64x8192 (![0, 1, 2] : Fin 3 → Fin S64x64x8192.rank)
  reducesTo_S64x64x8192_S64_d1_2 : S64x64x8192.ReducesTo [1, 2] S64
  h_S_ : 0 < S_.numel
  bcast_S64_S64x1x1_0 : S64.BroadcastsInDim S64x1x1 (![0] : Fin 1 → Fin S64x1x1.rank)
  bcast_S64x1x1_S64x64x8192_0_1_2 : S64x1x1.BroadcastsInDim S64x64x8192 (![0, 1, 2] : Fin 3 → Fin S64x64x8192.rank)
  bcast_S_S64x1x1 : S_.BroadcastsInDim S64x1x1 (![] : Fin 0 → Fin S64x1x1.rank)

variable [Facts₀]

class Facts : Prop extends Facts₀ where

variable [Facts]
-- ==== Proof.ReducePieces.lean ====
/-
  What one grid point of the reduction leaves in its two accumulators.

  The reduction's body keeps two accumulators of shape [32,1,1] (one number per batch row of the block): the running
  prefix sum and the running prefix sum of squares. At the first chunk of a row block (the chunk coordinate is 0) it
  first stores zeros and then adds the chunk's row sums to what it reads back — the zeros; at every later chunk it adds
  the chunk's row sums to what the accumulator already holds. So, writing `rowsum` and `rowsq` for the body's two
  arithmetic terms (the generated payloads, functions of the data block, the lengths block and the accumulator read):

      first chunk:   acc₁ := rowsum(data, len, 0),    acc₂ := rowsq(data, len, 0)
      later chunks:  acc₁ := rowsum(data, len, acc₁),  acc₂ := rowsq(data, len, acc₂)

  These four equations hold for any float instance; the arithmetic inside the two terms is read in another module.
-/
import proofs.«120618_j69157563400282_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.PrefixNorm.Kernel

open Cert.KernelIdeal Cert.KernelIdeal.Gen

variable {F : FTy → Type} [FloatOps F]

/-- The zero offset of a rank-3 access. -/
theorem hz3 : (![0, 0, 0] : Fin 3 → Nat) = fun _ => 0 := funext fun a => by fin_cases a <;> rfl

/-- A later chunk leaves, in the sum accumulator holding `xo2`, the sum term over `xo2`. -/
theorem out_B_2 (c : Dev nD) (i : grid0.Coords) (a2 : Memref sig .tc .vmem S32x64x512 .f32) (h2 : a2.IsWhole)
    (a3 : Memref sig .tc .vmem S32x1x1 .i32) (h3 : a3.IsWhole) (a4 : Memref sig .tc .vmem S32x1x1 .f32) (h4 : a4.IsWhole)
    (a5 : Memref sig .tc .vmem S32x1x1 .f32) (h5 : a5.IsWhole) (hc : ¬cond0_0 i)
    (x0 : Vec F S32x64x512 .f32) (x1 : Vec F S32x1x1 .i32) (xo2 xo3 : Vec F S32x1x1 .f32) :
    out0_B_2 c i a2 h2 a3 h3 a4 h4 a5 h5 hc x0 x1 xo2 xo3 = k0_pay4 i x0 x1 xo2 := by
  unfold out0_B_2
  rw [View.read_writes_eq_canon _ _ _ (cover0_B_2 c i a2 h2 a3 h3 a4 h4 a5 h5 hc x0 x1 xo2 xo3)]
  unfold kernelRun0_B
  dsimp only
  rw [View.canon_unit_zero hz3]
  simp only [View.readAt_eq_ld, h2.read_unread, h3.read_unread, h4.read_unread, h5.read_unread,
    View.ld_unit_zero (S := S32x64x512) hz3, View.ld_unit_zero (S := S32x1x1) hz3]

/-- A later chunk leaves, in the squares accumulator holding `xo3`, the squares term over `xo3`. -/
theorem out_B_3 (c : Dev nD) (i : grid0.Coords) (a2 : Memref sig .tc .vmem S32x64x512 .f32) (h2 : a2.IsWhole)
    (a3 : Memref sig .tc .vmem S32x1x1 .i32) (h3 : a3.IsWhole) (a4 : Memref sig .tc .vmem S32x1x1 .f32) (h4 : a4.IsWhole)
    (a5 : Memref sig .tc .vmem S32x1x1 .f32) (h5 : a5.IsWhole) (hc : ¬cond0_0 i)
    (x0 : Vec F S32x64x512 .f32) (x1 : Vec F S32x1x1 .i32) (xo2 xo3 : Vec F S32x1x1 .f32) :
    out0_B_3 c i a2 h2 a3 h3 a4 h4 a5 h5 hc x0 x1 xo2 xo3 = k0_pay5 i x0 x1 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, h5.read_unread,
    View.ld_unit_zero (S := S32x64x512) hz3, View.ld_unit_zero (S := S32x1x1) hz3]

/-- The first chunk stores zeros in the sum accumulator, reads them back, and leaves the sum term over zeros. -/
theorem out_A_2 (c : Dev nD) (i : grid0.Coords) (a2 : Memref sig .tc .vmem S32x64x512 .f32) (h2 : a2.IsWhole)
    (a3 : Memref sig .tc .vmem S32x1x1 .i32) (h3 : a3.IsWhole) (a4 : Memref sig .tc .vmem S32x1x1 .f32) (h4 : a4.IsWhole)
    (a5 : Memref sig .tc .vmem S32x1x1 .f32) (h5 : a5.IsWhole) (hc : cond0_0 i)
    (x0 : Vec F S32x64x512 .f32) (x1 : Vec F S32x1x1 .i32) :
    out0_A_2 c i a2 h2 a3 h3 a4 h4 a5 h5 hc x0 x1 = k0_pay4 i x0 x1 (k0_pay1 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S32x1x1) hz3, View.readCov_unit_zero (S := S32x1x1) _ hz3]
  simp only [View.readAt_eq_ld, h2.read_unread, h3.read_unread,
    View.ld_unit_zero (S := S32x64x512) hz3, View.ld_unit_zero (S := S32x1x1) hz3]

/-- The first chunk stores zeros in the squares accumulator, reads them back, and leaves the squares term over zeros. -/
theorem out_A_3 (c : Dev nD) (i : grid0.Coords) (a2 : Memref sig .tc .vmem S32x64x512 .f32) (h2 : a2.IsWhole)
    (a3 : Memref sig .tc .vmem S32x1x1 .i32) (h3 : a3.IsWhole) (a4 : Memref sig .tc .vmem S32x1x1 .f32) (h4 : a4.IsWhole)
    (a5 : Memref sig .tc .vmem S32x1x1 .f32) (h5 : a5.IsWhole) (hc : cond0_0 i)
    (x0 : Vec F S32x64x512 .f32) (x1 : Vec F S32x1x1 .i32) :
    out0_A_3 c i a2 h2 a3 h3 a4 h4 a5 h5 hc x0 x1 = k0_pay5 i x0 x1 (k0_pay2 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S32x1x1) hz3, View.readCov_unit_zero (S := S32x1x1) _ hz3]
  simp only [View.readAt_eq_ld, h2.read_unread, h3.read_unread,
    View.ld_unit_zero (S := S32x64x512) hz3, View.ld_unit_zero (S := S32x1x1) hz3]

end Cert.PrefixNorm.Kernel

end
-- ==== Proof.Spec.lean ====
/-
  The mathematics both programs compute, stated once over the extended reals.

  For each batch row b the data x[b, ·, ·] (64 channels × 8192 positions) is normalised by the mean and the unbiased
  standard deviation of its PREFIX — the positions l below the row's length z[b] (a signed 32-bit integer), in every
  channel. With ind(b, l) = 1 on the prefix and 0 beyond it:

      sum1 b = Σ_c Σ_l x[b,c,l] · ind(b,l)              sum2 b = Σ_c Σ_l (x[b,c,l] · ind(b,l)) · x[b,c,l]
      cnt b  = 64 · z[b]                                 mean b = sum1 b / cnt b
      varK b = (sum2 b − cnt b · mean b · mean b) / (cnt b − 1)        (the sum of squares minus the squared mean)
      varR b = (Σ_c Σ_l dev(b,c,l) · dev(b,c,l)) / (cnt b − 1),   dev(b,c,l) = (x[b,c,l] − mean b) · ind(b,l)
      out[b,c,l] = (x[b,c,l] − mean b) / (√var b + ε)

  The two variance forms differ; Algebra.lean shows they are one number when the data are finite and z[b] ≤ 8192
  (so that the prefix really has 64 · z[b] elements, or is empty and mean b · cnt b vanishes).
  Division, square root and the float words 64.0, 1.0, ε are the ideal instance's (division by zero has its
  documented value there, so every term below is total).
-/
import Idealize.ShloMosaic.PureOps.Ideal
import Idealize.ShloMosaic.Lib.ValueIdx

noncomputable section

open scoped BigOperators

namespace Cert.PrefixNorm

open Idealize.ShloMosaic Idealize.ShloMosaic.ValueIdx

/-- The data's shape: batch rows × channels × positions. -/
abbrev SX : Shape := ⟨3, ![64, 64, 8192]⟩
/-- The prefix lengths' shape: one per batch row. -/
abbrev SZ : Shape := ⟨1, ![64]⟩

/-- The float words the programs spell: 64.0 (the channel count), 1.0, and ε = 2⁻²³. -/
abbrev w64 : EReal := Ideal.ofBits .f32 0x42800000#32
abbrev w1 : EReal := Ideal.ofBits .f32 0x3F800000#32
abbrev wEps : EReal := Ideal.ofBits .f32 0x34000000#32

section
variable (x : SX.Idx → EReal) (z : SZ.Idx → BitVec 32)

/-- 1 when position `l` lies in row `b`'s prefix (l < z[b], as integers), else 0. -/
def ind (b : Fin 64) (l : Fin 8192) : EReal := if (l.val : ℤ) < (z (ix1 b)).toInt then 1 else 0

/-- The prefix's sum, over all channels. -/
def sum1 (b : Fin 64) : EReal := ∑ c : Fin 64, ∑ l : Fin 8192, x (ix3 b c l) * ind z b l

/-- The prefix's sum of squares, over all channels (grouped as the kernel multiplies: (x · ind) · x). -/
def sum2 (b : Fin 64) : EReal := ∑ c : Fin 64, ∑ l : Fin 8192, x (ix3 b c l) * ind z b l * x (ix3 b c l)

/-- The element count the programs divide by: 64 · z[b]. -/
def cnt (b : Fin 64) : EReal := w64 * (((z (ix1 b)).toInt : ℝ) : EReal)

/-- The prefix mean. -/
def mean (b : Fin 64) : EReal := Ideal.div (sum1 x z b) (cnt z b)

/-- The variance as the kernel forms it: (Σ x² − cnt · mean · mean) / (cnt − 1). -/
def varK (b : Fin 64) : EReal := Ideal.div (sum2 x z b - cnt z b * mean x z b * mean x z b) (cnt z b - w1)

/-- A masked deviation from the mean. -/
def dev (b : Fin 64) (c : Fin 64) (l : Fin 8192) : EReal := (x (ix3 b c l) - mean x z b) * ind z b l

/-- The variance as the reference forms it: Σ dev² / (cnt − 1). -/
def varR (b : Fin 64) : EReal := Ideal.div (∑ c : Fin 64, ∑ l : Fin 8192, dev x z b c l * dev x z b c l) (cnt z b - w1)

/-- One normalised element, given the row's variance. -/
def normBy (v : EReal) (b : Fin 64) (c : Fin 64) (l : Fin 8192) : EReal :=
  Ideal.div (x (ix3 b c l) - mean x z b) (Ideal.sqrt v + wEps)

/-- The whole result with the kernel's variance. -/
def GK : SX.Idx → EReal := fun i => normBy x z (varK x z (i 0)) (i 0) (i 1) (i 2)

/-- The whole result with the reference's variance. -/
def GR : SX.Idx → EReal := fun i => normBy x z (varR x z (i 0)) (i 0) (i 1) (i 2)

end

end Cert.PrefixNorm

end
-- ==== Proof.ReducePayload.lean ====
/-
  The reduction body's arithmetic, read at one row of the block, over the extended reals.

  The body masks the data block [32,64,512] by "position below the row's length" — the position of lane l in chunk j is
  j·512 + l, compared as a signed word with the length, the bit converted to 0 or 1 —, sums the masked data (and the
  masked data times the data) over the 512 lanes and then over the 64 channels, and adds the result to the
  accumulator. Read at row r:

      sum term:      acc[r] + Σ_c Σ_l x[r,c,l] · ind_j(len[r], l)
      squares term:  acc[r] + Σ_c Σ_l (x[r,c,l] · ind_j(len[r], l)) · x[r,c,l]

  A sum over one axis of a vector is the finite sum over that axis at the ideal instance; the unit axes the body keeps
  between the two reductions only re-spell an index.
-/
import proofs.«120618_j69157563400282_1_alg».proof.Proof.Gen.KernelIdeal.Skeleton
import proofs.«120618_j69157563400282_1_alg».proof.Proof.Spec
import Idealize.ShloMosaic.Lib.Pipeline.Value
import Idealize.ShloMosaic.Lib.ValueIdx
import Idealize.ShloMosaic.Lib.WordArith
import Idealize.ShloMosaic.PureOps.Ideal.Laws

noncomputable section

open scoped BigOperators
open Idealize.ShloMosaic Idealize.ShloMosaic.ValueIdx

namespace Cert.PrefixNorm.Kernel

open Cert.KernelIdeal Cert.KernelIdeal.Gen

/-- Within chunk `j` (positions j·512 … j·512+511), 1 when the position lies below the row's length, else 0. -/
def chunkInd (j : ℕ) (zb : BitVec 32) (l : Fin 512) : EReal :=
  if ((j * 512 + l.val : ℕ) : ℤ) < zb.toInt then 1 else 0

/-- The body's mask word: position l of chunk j, as a 32-bit word, compared (signed) with the row's length; the one-bit
    answer widened and converted. It is the indicator above: the position is below 2¹³, so its word reads back as itself. -/
theorem mask_word (j : ℕ) (hj : j < 16) (l : Fin 512) (zb : BitVec 32) :
    FloatOps.sitofp (F := Ideal) .f32
      ((IntOp.cmpi .slt (IntOp.addi (BitVec.ofNat 32 l.val) (Scalar.muli (BitVec.ofNat 32 j) 512#32)) zb).setWidth 32)
      = chunkInd j zb l := by
  have hl := l.isLt
  have ha : IntOp.addi (BitVec.ofNat 32 l.val) (Scalar.muli (BitVec.ofNat 32 j) 512#32)
      = BitVec.ofNat 32 (j * 512 + l.val) := by
    unfold IntOp.addi Scalar.muli IntOp.muli
    apply BitVec.eq_of_toNat_eq
    simp only [BitVec.toNat_add, BitVec.toNat_mul, BitVec.toNat_ofNat]
    omega
  have hti : (BitVec.ofNat 32 (j * 512 + l.val)).toInt = ((j * 512 + l.val : ℕ) : ℤ) :=
    WordArith.toInt_ofNat_small _ (by omega)
  rw [ha]
  unfold chunkInd IntOp.cmpi
  show (((((BitVec.ofBool ((BitVec.ofNat 32 (j * 512 + l.val)).slt zb)).setWidth 32).toInt : ℤ) : ℝ) : EReal) = _
  rw [BitVec.slt, hti]
  by_cases h : ((j * 512 + l.val : ℕ) : ℤ) < zb.toInt
  · rw [if_pos h, decide_eq_true h]
    have e : ((BitVec.ofBool true).setWidth 32).toInt = 1 := by decide
    rw [e]; simp
  · rw [if_neg h, decide_eq_false h]
    have e : ((BitVec.ofBool false).setWidth 32).toInt = 0 := by decide
    rw [e]; simp

/-- The masked data at an index of the block: the datum times the chunk's indicator for its row. (The lengths block
    [32,1,1] is spread along channels and positions; the position counter is the lane index plus 512·chunk.) -/
theorem pay3_apply (i : grid0.Coords) (x0 : Vec Ideal S32x64x512 .f32) (x1 : Vec Ideal S32x1x1 .i32)
    (r : Fin 32) (c : Fin 64) (l : Fin 512) :
    k0_pay3 (F := Ideal) i x0 x1 (ix3 r c l) = x0 (ix3 r c l) * chunkInd (i 1).val (x1 (ix3 r 0 0)) l := by
  unfold k0_pay3
  dsimp only
  rw [shapeCast_self]
  show x0 (ix3 r c l) * FloatOps.sitofp (F := Ideal) .f32
      ((IntOp.cmpi .slt (IntOp.addi (iota .tc S32x64x512 32 [2] Facts₀.iota_S32x64x512_d2_w32 (ix3 r c l))
        (Scalar.muli (BitVec.ofNat 32 (i 1).val) 512#32))
        (broadcastTo S32x64x512 x1 Facts₀.broadcasts_S32x1x1_S32x64x512 (ix3 r c l))).setWidth 32) = _
  rw [iota_single_apply, broadcastTo_apply x1 _ (ix3 r c l) (ix3 r 0 0)
    (fun a => by match a with | ⟨0, _⟩ => rfl | ⟨1, _⟩ => rfl | ⟨2, _⟩ => rfl)]
  exact congrArg (x0 (ix3 r c l) * ·) (mask_word (i 1).val (show (i 1).val < 16 from (i 1).isLt) l (x1 (ix3 r 0 0)))

/-- A row's sum over the chunk, all channels: the inner sum runs over the 512 positions, the outer over the 64 channels
    (the body reduces the lanes first, keeps the reduced axis as a unit axis, then reduces the channels). -/
theorem rowsum_apply (y : FVec Ideal S32x64x512 .f32) (r : Fin 32) :
    shapeCast S32x1x1 (multiReduction .add [1] S32x1
        (shapeCast S32x64x1 (multiReduction .add [2] S32x64 y 0x00000000#32 Facts₀.reduces_S32x64x512_S32x64 (.inl rfl) rfl)
          Facts₀.shapeCasts_S32x64_S32x64x1)
        0x00000000#32 Facts₀.reduces_S32x64x1_S32x1 (.inl rfl) rfl) Facts₀.shapeCasts_S32x1_S32x1x1 (ix3 r 0 0)
      = ∑ c : Fin 64, ∑ l : Fin 512, y (ix3 r c l) := by
  refine (shapeCast_apply _ Facts₀.shapeCasts_S32x1_S32x1x1 (ix3 r 0 0) (ix2 r 0) (by
    rw [Shape.rowMajor_val_two, Shape.rowMajor_val_three]; simp)).trans ?_
  refine (Ideal.multiReduction_add_single _ 0x00000000#32 Facts₀.reduces_S32x64x1_S32x1 (.inl rfl) rfl (ix2 r 0)).trans ?_
  refine Finset.sum_congr rfl fun c _ => ?_
  have e1 : Facts₀.reduces_S32x64x1_S32x1.lift (ix2 r (0 : Fin 1)) c = ix3 r c (0 : Fin 1) := by
    funext a; apply Fin.ext
    match a with
    | ⟨0, _⟩ => rfl
    | ⟨1, _⟩ => rfl
    | ⟨2, _⟩ => rfl
  rw [e1]
  refine (shapeCast_apply _ Facts₀.shapeCasts_S32x64_S32x64x1 (ix3 r c (0 : Fin 1)) (ix2 r c) (by
    rw [Shape.rowMajor_val_two, Shape.rowMajor_val_three]; simp)).trans ?_
  refine (Ideal.multiReduction_add_single y 0x00000000#32 Facts₀.reduces_S32x64x512_S32x64 (.inl rfl) rfl (ix2 r c)).trans ?_
  refine Finset.sum_congr rfl fun l _ => ?_
  have e2 : Facts₀.reduces_S32x64x512_S32x64.lift (ix2 r c) l = ix3 r c l := by
    funext a; apply Fin.ext
    match a with
    | ⟨0, _⟩ => rfl
    | ⟨1, _⟩ => rfl
    | ⟨2, _⟩ => rfl
  rw [e2]
  rfl

/-- The zero word denotes 0. -/
theorem zero_word : Scalar.ofBits (F := Ideal) .f32 0x00000000#32 = (0 : EReal) := Ideal.ofBits_zero_f32

/-- The sum term at a row: what the accumulator held plus the row's masked sum over the chunk. -/
theorem pay4_apply (i : grid0.Coords) (x0 : Vec Ideal S32x64x512 .f32) (x1 : Vec Ideal S32x1x1 .i32)
    (acc : Vec Ideal S32x1x1 .f32) (r : Fin 32) :
    k0_pay4 (F := Ideal) i x0 x1 acc (ix3 r 0 0)
      = acc (ix3 r 0 0) + ∑ c : Fin 64, ∑ l : Fin 512, x0 (ix3 r c l) * chunkInd (i 1).val (x1 (ix3 r 0 0)) l := by
  unfold k0_pay4
  dsimp only
  rw [shapeCast_self]
  refine congrArg (acc (ix3 r 0 0) + ·) ((rowsum_apply (k0_pay3 (F := Ideal) i x0 x1) r).trans ?_)
  exact Finset.sum_congr rfl fun c _ => Finset.sum_congr rfl fun l _ => pay3_apply i x0 x1 r c l

/-- The squares term at a row: what the accumulator held plus the row's masked sum of squares over the chunk. -/
theorem pay5_apply (i : grid0.Coords) (x0 : Vec Ideal S32x64x512 .f32) (x1 : Vec Ideal S32x1x1 .i32)
    (acc : Vec Ideal S32x1x1 .f32) (r : Fin 32) :
    k0_pay5 (F := Ideal) i x0 x1 acc (ix3 r 0 0)
      = acc (ix3 r 0 0) + ∑ c : Fin 64, ∑ l : Fin 512,
          x0 (ix3 r c l) * chunkInd (i 1).val (x1 (ix3 r 0 0)) l * x0 (ix3 r c l) := by
  unfold k0_pay5
  dsimp only
  rw [shapeCast_self]
  refine congrArg (acc (ix3 r 0 0) + ·) ((rowsum_apply (mulf (k0_pay3 (F := Ideal) i x0 x1) x0) r).trans ?_)
  exact Finset.sum_congr rfl fun c _ => Finset.sum_congr rfl fun l _ =>
    congrArg (· * x0 (ix3 r c l)) (pay3_apply i x0 x1 r c l)

/-- The zero blocks the first chunk stores. -/
theorem pay1_apply (j : S32x1x1.Idx) : k0_pay1 (F := Ideal) j = 0 := zero_word
theorem pay2_apply (j : S32x1x1.Idx) : k0_pay2 (F := Ideal) j = 0 := zero_word

end Cert.PrefixNorm.Kernel
end
-- ==== Proof.ReduceRun.lean ====
/-
  The reduction region as a whole: what its two output arrays hold when it ends.

  The region's grid is 2 row blocks × 16 chunks, the chunk running fastest; point n = 16·q + j works on batch rows
  32·q … 32·q + 31 and positions 512·j … 512·j + 511. Its two accumulators live in staging buffers that are written back
  to the [64,1,1] result arrays only when the row block changes (after chunk 15), so between write-backs the buffer
  carries the running total.

  * One point (the step lemmas): after the first chunk of a row block the accumulator's row r holds that chunk's masked
    row sum; after a later chunk it holds what it held plus that chunk's masked row sum — the four case equations of
    the body, the body's arithmetic read at a row, and the two input blocks read where their index maps put them
    (block index × block size + the coordinate inside).
  * All points (induction on the point number): after point 16·q + j, row r holds Σ_{k ≤ j} of the chunk sums of batch
    row 32·q + r. Nothing depends on the order beyond this: the sums are over the extended reals' commutative addition.
  * The arrays: the points that write back (j = 15) write the sixteen-chunk totals of their 32 rows, and every batch
    row is in exactly such a block, so each array ends holding every row's total.
-/
import proofs.«120618_j69157563400282_1_alg».proof.Proof.ReducePieces
import proofs.«120618_j69157563400282_1_alg».proof.Proof.ReducePayload
import Idealize.ShloMosaic.Lib.Pipeline.Value
import Idealize.ShloMosaic.Lib.ValueIdx
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.PrefixNorm.Kernel

open Cert.KernelIdeal Cert.KernelIdeal.Gen

variable (V : (c : Dev nD) → (b : Ref sig .tc) → Buf (Elt Ideal) ((c : Thread nD τ).loc b))

/-- The global position of lane `l` in chunk `k` (chunks are taken modulo 16 so that the term is total in `k`). -/
def pos (k : ℕ) (l : Fin 512) : Fin 8192 :=
  ⟨(k % 16) * 512 + l.val, by have := l.isLt; have := Nat.mod_lt k (by norm_num : 16 > 0); omega⟩

/-- Row `b`'s masked sum over chunk `k`, all channels, of the array `X` with lengths `Z` (kept as [64,1,1]). -/
def chunkSum (X : S64x64x8192.Idx → EReal) (Z : S64x1x1.Idx → BitVec 32) (b : Fin 64) (k : ℕ) : EReal :=
  ∑ c' : Fin 64, ∑ l : Fin 512, X (ix3 b c' (pos k l)) * chunkInd (k % 16) (Z (ix3 b 0 0)) l

/-- The same for the squares. -/
def chunkSq (X : S64x64x8192.Idx → EReal) (Z : S64x1x1.Idx → BitVec 32) (b : Fin 64) (k : ℕ) : EReal :=
  ∑ c' : Fin 64, ∑ l : Fin 512, X (ix3 b c' (pos k l)) * chunkInd (k % 16) (Z (ix3 b 0 0)) l * X (ix3 b c' (pos k l))

theorem N0 : cfg0.N = 32 := N_0

/-- The batch row that row `r` of row block `q` is (the row block taken modulo 2 so that the term is total in `q`). -/
def rowAt (q : ℕ) (r : Fin 32) : Fin 64 :=
  ⟨(q % 2) * 32 + r.val, by have := r.isLt; have := Nat.mod_lt q (by norm_num : 2 > 0); omega⟩

theorem lt32 (t : Fin cfg0.N) : t.val < 32 := lt_of_lt_of_eq t.isLt N0

/-- The printed index maps, decided over the grid: the data window's block index is (row block, 0, chunk), the
    lengths' and the two accumulators' (row block, 0, 0); the chunk coordinate is the point modulo 16. -/
theorem idx_facts : ∀ t : Fin cfg0.N,
    win0_0.index t (0 : Fin 3) = t.val / 16 ∧ win0_0.index t (1 : Fin 3) = 0 ∧ win0_0.index t (2 : Fin 3) = t.val % 16
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = 0 ∧ win0_3.index t (2 : Fin 3) = 0
    ∧ (grid0.coords t 1).val = t.val % 16 :=
  (by decide +kernel : ∀ t : Fin grid0.N, _)

/-- The data window's block at point `t`, read at (r, c', l): the array at (its batch row, c', its global position). -/
theorem iblk_data (c : Dev nD) (t : Fin cfg0.N) (r : Fin 32) (c' : Fin 64) (l : Fin 512) :
    (iblk0 V c 0 t : Vec Ideal S32x64x512 .f32) (ix3 r c' l)
      = (V c main_arg0 : S64x64x8192.Idx → EReal) (ix3 (rowAt (t.val / 16) r) c' (pos (t.val % 16) l)) := by
  obtain ⟨e0, e1, e2, -⟩ := idx_facts t
  unfold iblk0
  rw [View.read_apply]
  show V c main_arg0 _ = V c main_arg0 _
  congr 1
  funext a
  apply Fin.ext
  match a with
  | ⟨0, _⟩ => show win0_0.index t (0 : Fin 3) * 32 + 1 * r.val = ((t.val / 16) % 2) * 32 + r.val; rw [e0]; have := lt32 t; omega
  | ⟨1, _⟩ => show win0_0.index t (1 : Fin 3) * 64 + 1 * c'.val = c'.val; rw [e1]; omega
  | ⟨2, _⟩ => show win0_0.index t (2 : Fin 3) * 512 + 1 * l.val = ((t.val % 16) % 16) * 512 + l.val; rw [e2]; omega

/-- The lengths window's block at point `t`, read at row r: the lengths array at its batch row. -/
theorem iblk_len (c : Dev nD) (t : Fin cfg0.N) (r : Fin 32) :
    (iblk0 V c 1 t : Vec Ideal S32x1x1 .i32) (ix3 r 0 0)
      = (V c main_v0 : S64x1x1.Idx → BitVec 32) (ix3 (rowAt (t.val / 16) r) 0 0) := by
  obtain ⟨-, -, -, e0, e1, e2, -⟩ := idx_facts t
  unfold iblk0
  rw [View.read_apply]
  show V c main_v0 _ = V c main_v0 _
  congr 1
  funext a
  apply Fin.ext
  match a with
  | ⟨0, _⟩ => show win0_1.index t (0 : Fin 3) * 32 + 1 * r.val = ((t.val / 16) % 2) * 32 + r.val; rw [e0]; have := lt32 t; omega
  | ⟨1, _⟩ => show win0_1.index t (1 : Fin 3) * 1 + 1 * 0 = 0; rw [e1]
  | ⟨2, _⟩ => show win0_1.index t (2 : Fin 3) * 1 + 1 * 0 = 0; rw [e2]

/-- The arrays the region finds: the data and the lengths (as [64,1,1]). -/
abbrev dataOf (c : Dev nD) : S64x64x8192.Idx → EReal := V c main_arg0
abbrev lenOf (c : Dev nD) : S64x1x1.Idx → BitVec 32 := V c main_v0
/-- The two input blocks at a point, at their plain types. -/
abbrev blkData (c : Dev nD) (t : Fin cfg0.N) : S32x64x512.Idx → EReal := iblk0 V c 0 t
abbrev blkLen (c : Dev nD) (t : Fin cfg0.N) : S32x1x1.Idx → BitVec 32 := iblk0 V c 1 t

/-- One point's masked sum over its blocks is the array's masked sum over that row and chunk. -/
theorem part_sum (c : Dev nD) (t : Fin cfg0.N) (r : Fin 32) :
    (∑ c' : Fin 64, ∑ l : Fin 512, blkData V c t (ix3 r c' l)
        * chunkInd (grid0.coords t 1).val (blkLen V c t (ix3 r 0 0)) l)
      = chunkSum (dataOf V c) (lenOf V c) (rowAt (t.val / 16) r) (t.val % 16) := by
  obtain ⟨-, -, -, -, -, -, -, -, -, -, -, -, eg⟩ := idx_facts t
  unfold chunkSum
  refine Finset.sum_congr rfl fun c' _ => Finset.sum_congr rfl fun l _ => ?_
  rw [show blkData V c t (ix3 r c' l) = _ from iblk_data V c t r c' l,
    show blkLen V c t (ix3 r 0 0) = _ from iblk_len V c t r, eg, Nat.mod_mod]

/-- The same for the squares. -/
theorem part_sq (c : Dev nD) (t : Fin cfg0.N) (r : Fin 32) :
    (∑ c' : Fin 64, ∑ l : Fin 512, blkData V c t (ix3 r c' l)
        * chunkInd (grid0.coords t 1).val (blkLen V c t (ix3 r 0 0)) l * blkData V c t (ix3 r c' l))
      = chunkSq (dataOf V c) (lenOf V c) (rowAt (t.val / 16) r) (t.val % 16) := by
  obtain ⟨-, -, -, -, -, -, -, -, -, -, -, -, eg⟩ := idx_facts t
  unfold chunkSq
  refine Finset.sum_congr rfl fun c' _ => Finset.sum_congr rfl fun l _ => ?_
  rw [show blkData V c t (ix3 r c' l) = _ from iblk_data V c t r c' l,
    show blkLen V c t (ix3 r 0 0) = _ from iblk_len V c t r, eg, Nat.mod_mod]

/-- After a first chunk the sum accumulator holds that chunk's masked row sums. -/
theorem acc1_first (c : Dev nD) (t : Fin cfg0.N) (h0 : t.val % 16 = 0) (r : Fin 32) :
    (outsAt0 V c t.val t.isLt).1 (ix3 r 0 0)
      = chunkSum (dataOf V c) (lenOf V c) (rowAt (t.val / 16) r) (t.val % 16) := by
  refine (congrFun (congrArg Prod.fst (outsAt0_A V c t h0)) (ix3 r 0 0)).trans ?_
  refine (congrFun (out_A_2 c (grid0.coords t) (ms0_0 t) (hs0_0 t) (ms0_1 t) (hs0_1 t) (ms0_2 t) (hs0_2 t) (ms0_3 t) (hs0_3 t)
    ((hcond0_0 t).mpr h0) (iblk0 V c 0 t) (iblk0 V c 1 t)) (ix3 r 0 0)).trans ?_
  refine (pay4_apply (grid0.coords t) (blkData V c t) (blkLen V c t) (k0_pay1 (F := Ideal)) r).trans ?_
  rw [pay1_apply, zero_add]
  exact part_sum V c t r

/-- After a later chunk it holds what it held after the point before, plus that chunk's masked row sums. -/
theorem acc1_next (c : Dev nD) (t : Fin cfg0.N) (h0 : ¬t.val % 16 = 0) (r : Fin 32) :
    (outsAt0 V c t.val t.isLt).1 (ix3 r 0 0)
      = (outsAt0 V c (t.val - 1) (Nat.lt_of_le_of_lt (Nat.sub_le _ _) t.isLt)).1 (ix3 r 0 0)
        + chunkSum (dataOf V c) (lenOf V c) (rowAt (t.val / 16) r) (t.val % 16) := by
  refine (congrFun (congrArg Prod.fst (outsAt0_B V c t h0)) (ix3 r 0 0)).trans ?_
  refine (congrFun (out_B_2 c (grid0.coords t) (ms0_0 t) (hs0_0 t) (ms0_1 t) (hs0_1 t) (ms0_2 t) (hs0_2 t) (ms0_3 t) (hs0_3 t)
    (fun h => h0 ((hcond0_0 t).mp h)) (iblk0 V c 0 t) (iblk0 V c 1 t)
    (outsAt0 V c (t.val - 1) (Nat.lt_of_le_of_lt (Nat.sub_le _ _) t.isLt)).1
    (outsAt0 V c (t.val - 1) (Nat.lt_of_le_of_lt (Nat.sub_le _ _) t.isLt)).2) (ix3 r 0 0)).trans ?_
  refine (pay4_apply (grid0.coords t) (blkData V c t) (blkLen V c t)
    (outsAt0 V c (t.val - 1) (Nat.lt_of_le_of_lt (Nat.sub_le _ _) t.isLt)).1 r).trans ?_
  exact congrArg ((outsAt0 V c (t.val - 1) (Nat.lt_of_le_of_lt (Nat.sub_le _ _) t.isLt)).1 (ix3 r 0 0) + ·) (part_sum V c t r)

/-- After a first chunk the squares accumulator holds that chunk's masked row sums of squares. -/
theorem acc2_first (c : Dev nD) (t : Fin cfg0.N) (h0 : t.val % 16 = 0) (r : Fin 32) :
    (outsAt0 V c t.val t.isLt).2 (ix3 r 0 0)
      = chunkSq (dataOf V c) (lenOf V c) (rowAt (t.val / 16) r) (t.val % 16) := by
  refine (congrFun (congrArg Prod.snd (outsAt0_A V c t h0)) (ix3 r 0 0)).trans ?_
  refine (congrFun (out_A_3 c (grid0.coords t) (ms0_0 t) (hs0_0 t) (ms0_1 t) (hs0_1 t) (ms0_2 t) (hs0_2 t) (ms0_3 t) (hs0_3 t)
    ((hcond0_0 t).mpr h0) (iblk0 V c 0 t) (iblk0 V c 1 t)) (ix3 r 0 0)).trans ?_
  refine (pay5_apply (grid0.coords t) (blkData V c t) (blkLen V c t) (k0_pay2 (F := Ideal)) r).trans ?_
  rw [pay2_apply, zero_add]
  exact part_sq V c t r

/-- After a later chunk it holds what it held after the point before, plus that chunk's masked row sums of squares. -/
theorem acc2_next (c : Dev nD) (t : Fin cfg0.N) (h0 : ¬t.val % 16 = 0) (r : Fin 32) :
    (outsAt0 V c t.val t.isLt).2 (ix3 r 0 0)
      = (outsAt0 V c (t.val - 1) (Nat.lt_of_le_of_lt (Nat.sub_le _ _) t.isLt)).2 (ix3 r 0 0)
        + chunkSq (dataOf V c) (lenOf V c) (rowAt (t.val / 16) r) (t.val % 16) := by
  refine (congrFun (congrArg Prod.snd (outsAt0_B V c t h0)) (ix3 r 0 0)).trans ?_
  refine (congrFun (out_B_3 c (grid0.coords t) (ms0_0 t) (hs0_0 t) (ms0_1 t) (hs0_1 t) (ms0_2 t) (hs0_2 t) (ms0_3 t) (hs0_3 t)
    (fun h => h0 ((hcond0_0 t).mp h)) (iblk0 V c 0 t) (iblk0 V c 1 t)
    (outsAt0 V c (t.val - 1) (Nat.lt_of_le_of_lt (Nat.sub_le _ _) t.isLt)).1
    (outsAt0 V c (t.val - 1) (Nat.lt_of_le_of_lt (Nat.sub_le _ _) t.isLt)).2) (ix3 r 0 0)).trans ?_
  refine (pay5_apply (grid0.coords t) (blkData V c t) (blkLen V c t)
    (outsAt0 V c (t.val - 1) (Nat.lt_of_le_of_lt (Nat.sub_le _ _) t.isLt)).2 r).trans ?_
  exact congrArg ((outsAt0 V c (t.val - 1) (Nat.lt_of_le_of_lt (Nat.sub_le _ _) t.isLt)).2 (ix3 r 0 0) + ·) (part_sq V c t r)

/-- The accumulators' contents depend on the point only through its number. -/
theorem outsAt_congr (c : Dev nD) (a b : ℕ) (ha : a < cfg0.N) (hb : b < cfg0.N) (h : a = b) :
    outsAt0 V c a ha = outsAt0 V c b hb := by subst h; rfl

/-- THE RUNNING SUM. After point n = 16·q + j the sum accumulator's row r holds the masked row sums of chunks 0 … j of
    batch row 32·q + r: by induction on the point, the first chunk of a row block starting afresh. -/
theorem acc1_at (c : Dev nD) : ∀ (n : ℕ) (hn : n < cfg0.N) (r : Fin 32),
    (outsAt0 V c n hn).1 (ix3 r 0 0)
      = ∑ k ∈ Finset.range (n % 16 + 1), chunkSum (dataOf V c) (lenOf V c) (rowAt (n / 16) r) k
  | 0, hn, r => by
    have h : (outsAt0 V c 0 hn).1 (ix3 r 0 0) = chunkSum (dataOf V c) (lenOf V c) (rowAt (0 / 16) r) (0 % 16) :=
      acc1_first V c ⟨0, hn⟩ (Nat.zero_mod _) r
    rw [h]
    show _ = ∑ k ∈ Finset.range 1, chunkSum (dataOf V c) (lenOf V c) (rowAt (0 / 16) r) k
    rw [Finset.sum_range_one]
  | n + 1, hn, r => by
    by_cases h0 : (n + 1) % 16 = 0
    · have h : (outsAt0 V c (n + 1) hn).1 (ix3 r 0 0)
          = chunkSum (dataOf V c) (lenOf V c) (rowAt ((n + 1) / 16) r) ((n + 1) % 16) :=
        acc1_first V c ⟨n + 1, hn⟩ h0 r
      rw [h, h0, Finset.sum_range_one]
    · have h : (outsAt0 V c (n + 1) hn).1 (ix3 r 0 0)
          = (outsAt0 V c (n + 1 - 1) (Nat.lt_of_le_of_lt (Nat.sub_le _ _) hn)).1 (ix3 r 0 0)
            + chunkSum (dataOf V c) (lenOf V c) (rowAt ((n + 1) / 16) r) ((n + 1) % 16) :=
        acc1_next V c ⟨n + 1, hn⟩ h0 r
      have e1 : (n + 1) / 16 = n / 16 := by omega
      have e2 : (n + 1) % 16 = n % 16 + 1 := by omega
      rw [h, outsAt_congr V c (n + 1 - 1) n _ (Nat.lt_of_succ_lt hn) (by omega),
        acc1_at c n (Nat.lt_of_succ_lt hn) r, e1, e2, Finset.sum_range_succ _ (n % 16 + 1)]

/-- THE RUNNING SUM OF SQUARES, likewise. -/
theorem acc2_at (c : Dev nD) : ∀ (n : ℕ) (hn : n < cfg0.N) (r : Fin 32),
    (outsAt0 V c n hn).2 (ix3 r 0 0)
      = ∑ k ∈ Finset.range (n % 16 + 1), chunkSq (dataOf V c) (lenOf V c) (rowAt (n / 16) r) k
  | 0, hn, r => by
    have h : (outsAt0 V c 0 hn).2 (ix3 r 0 0) = chunkSq (dataOf V c) (lenOf V c) (rowAt (0 / 16) r) (0 % 16) :=
      acc2_first V c ⟨0, hn⟩ (Nat.zero_mod _) r
    rw [h]
    show _ = ∑ k ∈ Finset.range 1, chunkSq (dataOf V c) (lenOf V c) (rowAt (0 / 16) r) k
    rw [Finset.sum_range_one]
  | n + 1, hn, r => by
    by_cases h0 : (n + 1) % 16 = 0
    · have h : (outsAt0 V c (n + 1) hn).2 (ix3 r 0 0)
          = chunkSq (dataOf V c) (lenOf V c) (rowAt ((n + 1) / 16) r) ((n + 1) % 16) :=
        acc2_first V c ⟨n + 1, hn⟩ h0 r
      rw [h, h0, Finset.sum_range_one]
    · have h : (outsAt0 V c (n + 1) hn).2 (ix3 r 0 0)
          = (outsAt0 V c (n + 1 - 1) (Nat.lt_of_le_of_lt (Nat.sub_le _ _) hn)).2 (ix3 r 0 0)
            + chunkSq (dataOf V c) (lenOf V c) (rowAt ((n + 1) / 16) r) ((n + 1) % 16) :=
        acc2_next V c ⟨n + 1, hn⟩ h0 r
      have e1 : (n + 1) / 16 = n / 16 := by omega
      have e2 : (n + 1) % 16 = n % 16 + 1 := by omega
      rw [h, outsAt_congr V c (n + 1 - 1) n _ (Nat.lt_of_succ_lt hn) (by omega),
        acc2_at c n (Nat.lt_of_succ_lt hn) r, e1, e2, Finset.sum_range_succ _ (n % 16 + 1)]

/-- A batch row's total over the sixteen chunks: its masked sum, and its masked sum of squares. -/
def rowTotal (X : S64x64x8192.Idx → EReal) (Z : S64x1x1.Idx → BitVec 32) (b : Fin 64) : EReal :=
  ∑ k ∈ Finset.range 16, chunkSum X Z b k
def sqTotal (X : S64x64x8192.Idx → EReal) (Z : S64x1x1.Idx → BitVec 32) (b : Fin 64) : EReal :=
  ∑ k ∈ Finset.range 16, chunkSq X Z b k

/-- The two [64,1,1] arrays the region leaves. -/
def sumArr (X : S64x64x8192.Idx → EReal) (Z : S64x1x1.Idx → BitVec 32) : S64x1x1.Idx → EReal := fun i => rowTotal X Z (i 0)
def sqArr (X : S64x64x8192.Idx → EReal) (Z : S64x1x1.Idx → BitVec 32) : S64x1x1.Idx → EReal := fun i => sqTotal X Z (i 0)

/-- An index of an accumulator block [32,1,1] is its row followed by two zeros. -/
theorem acc_idx (y : S32x1x1.Idx) : y = ix3 (y 0) (0 : Fin 1) (0 : Fin 1) := by
  funext a
  match a with
  | ⟨0, _⟩ => rfl
  | ⟨1, _⟩ => exact Fin.ext (by have h : (y 1).val < 1 := (y 1).isLt; show (y 1).val = 0; omega)
  | ⟨2, _⟩ => exact Fin.ext (by have h : (y 2).val < 1 := (y 2).isLt; show (y 2).val = 0; omega)

/-- A point that writes accumulator 2 back (the last chunk of a row block) writes the row totals of its 32 batch rows. -/
theorem flushed_sumArr (c : Dev nD) (t : Fin cfg0.N) (hf : (cfg0.win 2).flush t = true) :
    (dat0 V c).flushed 2 t = ((cfg0.win 2).blk t).view.read (Elt Ideal) (sumArr (dataOf V c) (lenOf V c)) := by
  have h15 : t.val % 16 = 15 := (flush0_2 t).mp hf
  obtain ⟨-, -, -, -, -, -, e0, -⟩ := idx_facts t
  show (cfg0.win 2).cut (grid0.coords t) ((dat0 V c).after 2 t) = _
  rw [after0_2]
  funext y
  rw [View.read_apply]
  show (outsAt0 V c t.val t.isLt).1 y = rowTotal (dataOf V c) (lenOf V c) ((((cfg0.win 2).blk t).view.emb y) 0)
  refine (congrArg (outsAt0 V c t.val t.isLt).1 (acc_idx y)).trans ?_
  refine (acc1_at V c t.val t.isLt (y 0)).trans ?_
  have hb : rowAt (t.val / 16) (y 0) = (((cfg0.win 2).blk t).view.emb y) 0 :=
    Fin.ext (by
      show ((t.val / 16) % 2) * 32 + (y 0).val = win0_2.index t (0 : Fin 3) * 32 + 1 * (y 0).val
      rw [e0]; have := lt32 t; omega)
  rw [h15, hb]
  rfl

/-- An index of the [64,1,1] array lies in point `t`'s block of accumulator 2 iff each coordinate is in the block's range. -/
theorem mem_blk2 (t : Fin cfg0.N) (i : S64x1x1.Idx) :
    i ∈ ((cfg0.win 2).blk t).view.set ↔ ∀ a : Fin 3, win0_2.index t a * S32x1x1.size a ≤ (i a).val
      ∧ (i a).val < win0_2.index t a * S32x1x1.size a + S32x1x1.size a := by
  show i ∈ ((View.whole main_v1_0).slice (win0_2.rect t)).set ↔ _
  rw [View.set_slice_whole, Rect.mem_set_unit]
  exact Iff.rfl

/-- Every batch row lies in the block written back at the last chunk of its row block. -/
theorem cover2 (i : S64x1x1.Idx) :
    ∃ t : Fin cfg0.N, (cfg0.win 2).flush t = true ∧ i ∈ ((cfg0.win 2).blk t).view.set := by
  have hi0 : (i 0).val < 64 := (i 0).isLt
  have hi1 : (i 1).val < 1 := (i 1).isLt
  have hi2 : (i 2).val < 1 := (i 2).isLt
  have ht : (i 0).val / 32 * 16 + 15 < cfg0.N := lt_of_lt_of_eq (by omega : (i 0).val / 32 * 16 + 15 < 32) N0.symm
  refine ⟨⟨(i 0).val / 32 * 16 + 15, ht⟩, (flush0_2 _).mpr (by show ((i 0).val / 32 * 16 + 15) % 16 = 15; omega), ?_⟩
  obtain ⟨-, -, -, -, -, -, e0, e1, e2, -⟩ := idx_facts ⟨(i 0).val / 32 * 16 + 15, ht⟩
  rw [mem_blk2]
  intro a
  match a with
  | ⟨0, _⟩ =>
    show win0_2.index ⟨(i 0).val / 32 * 16 + 15, ht⟩ (0 : Fin 3) * 32 ≤ (i 0).val
      ∧ (i 0).val < win0_2.index ⟨(i 0).val / 32 * 16 + 15, ht⟩ (0 : Fin 3) * 32 + 32
    rw [e0]; show ((i 0).val / 32 * 16 + 15) / 16 * 32 ≤ (i 0).val ∧ (i 0).val < ((i 0).val / 32 * 16 + 15) / 16 * 32 + 32; omega
  | ⟨1, _⟩ =>
    show win0_2.index ⟨(i 0).val / 32 * 16 + 15, ht⟩ (1 : Fin 3) * 1 ≤ (i 1).val
      ∧ (i 1).val < win0_2.index ⟨(i 0).val / 32 * 16 + 15, ht⟩ (1 : Fin 3) * 1 + 1
    rw [e1]; omega
  | ⟨2, _⟩ =>
    show win0_2.index ⟨(i 0).val / 32 * 16 + 15, ht⟩ (2 : Fin 3) * 1 ≤ (i 2).val
      ∧ (i 2).val < win0_2.index ⟨(i 0).val / 32 * 16 + 15, ht⟩ (2 : Fin 3) * 1 + 1
    rw [e2]; omega

/-- So after the region the array of accumulator 2 holds every batch row's total over the sixteen chunks. -/
theorem final_sumArr (c : Dev nD) : (dat0 V c).arrAt 2 cfg0.N = sumArr (dataOf V c) (lenOf V c) :=
  (dat0 V c).arrAt_eq_of_cover 2 (sumArr (dataOf V c) (lenOf V c)) (flushed_sumArr V c) cover2

/-- A point that writes accumulator 3 back (the last chunk of a row block) writes the row totals of its 32 batch rows. -/
theorem flushed_sqArr (c : Dev nD) (t : Fin cfg0.N) (hf : (cfg0.win 3).flush t = true) :
    (dat0 V c).flushed 3 t = ((cfg0.win 3).blk t).view.read (Elt Ideal) (sqArr (dataOf V c) (lenOf V c)) := by
  have h15 : t.val % 16 = 15 := (flush0_3 t).mp hf
  obtain ⟨-, -, -, -, -, -, -, -, -, e0, -⟩ := idx_facts t
  show (cfg0.win 3).cut (grid0.coords t) ((dat0 V c).after 3 t) = _
  rw [after0_3]
  funext y
  rw [View.read_apply]
  show (outsAt0 V c t.val t.isLt).2 y = sqTotal (dataOf V c) (lenOf V c) ((((cfg0.win 3).blk t).view.emb y) 0)
  refine (congrArg (outsAt0 V c t.val t.isLt).2 (acc_idx y)).trans ?_
  refine (acc2_at V c t.val t.isLt (y 0)).trans ?_
  have hb : rowAt (t.val / 16) (y 0) = (((cfg0.win 3).blk t).view.emb y) 0 :=
    Fin.ext (by
      show ((t.val / 16) % 2) * 32 + (y 0).val = win0_3.index t (0 : Fin 3) * 32 + 1 * (y 0).val
      rw [e0]; have := lt32 t; omega)
  rw [h15, hb]
  rfl

/-- An index of the [64,1,1] array lies in point `t`'s block of accumulator 3 iff each coordinate is in the block's range. -/
theorem mem_blk3 (t : Fin cfg0.N) (i : S64x1x1.Idx) :
    i ∈ ((cfg0.win 3).blk t).view.set ↔ ∀ a : Fin 3, win0_3.index t a * S32x1x1.size a ≤ (i a).val
      ∧ (i a).val < win0_3.index t a * S32x1x1.size a + S32x1x1.size a := by
  show i ∈ ((View.whole main_v1_1).slice (win0_3.rect t)).set ↔ _
  rw [View.set_slice_whole, Rect.mem_set_unit]
  exact Iff.rfl

/-- Every batch row lies in the block written back at the last chunk of its row block. -/
theorem cover3 (i : S64x1x1.Idx) :
    ∃ t : Fin cfg0.N, (cfg0.win 3).flush t = true ∧ i ∈ ((cfg0.win 3).blk t).view.set := by
  have hi0 : (i 0).val < 64 := (i 0).isLt
  have hi1 : (i 1).val < 1 := (i 1).isLt
  have hi2 : (i 2).val < 1 := (i 2).isLt
  have ht : (i 0).val / 32 * 16 + 15 < cfg0.N := lt_of_lt_of_eq (by omega : (i 0).val / 32 * 16 + 15 < 32) N0.symm
  refine ⟨⟨(i 0).val / 32 * 16 + 15, ht⟩, (flush0_3 _).mpr (by show ((i 0).val / 32 * 16 + 15) % 16 = 15; omega), ?_⟩
  obtain ⟨-, -, -, -, -, -, -, -, -, e0, e1, e2, -⟩ := idx_facts ⟨(i 0).val / 32 * 16 + 15, ht⟩
  rw [mem_blk3]
  intro a
  match a with
  | ⟨0, _⟩ =>
    show win0_3.index ⟨(i 0).val / 32 * 16 + 15, ht⟩ (0 : Fin 3) * 32 ≤ (i 0).val
      ∧ (i 0).val < win0_3.index ⟨(i 0).val / 32 * 16 + 15, ht⟩ (0 : Fin 3) * 32 + 32
    rw [e0]; show ((i 0).val / 32 * 16 + 15) / 16 * 32 ≤ (i 0).val ∧ (i 0).val < ((i 0).val / 32 * 16 + 15) / 16 * 32 + 32; omega
  | ⟨1, _⟩ =>
    show win0_3.index ⟨(i 0).val / 32 * 16 + 15, ht⟩ (1 : Fin 3) * 1 ≤ (i 1).val
      ∧ (i 1).val < win0_3.index ⟨(i 0).val / 32 * 16 + 15, ht⟩ (1 : Fin 3) * 1 + 1
    rw [e1]; omega
  | ⟨2, _⟩ =>
    show win0_3.index ⟨(i 0).val / 32 * 16 + 15, ht⟩ (2 : Fin 3) * 1 ≤ (i 2).val
      ∧ (i 2).val < win0_3.index ⟨(i 0).val / 32 * 16 + 15, ht⟩ (2 : Fin 3) * 1 + 1
    rw [e2]; omega

/-- So after the region the array of accumulator 3 holds every batch row's total over the sixteen chunks. -/
theorem final_sqArr (c : Dev nD) : (dat0 V c).arrAt 3 cfg0.N = sqArr (dataOf V c) (lenOf V c) :=
  (dat0 V c).arrAt_eq_of_cover 3 (sqArr (dataOf V c) (lenOf V c)) (flushed_sqArr V c) cover3

end Cert.PrefixNorm.Kernel
end
-- ==== Proof.Algebra.lean ====
/-
  The two variance formulas agree.

  The kernel forms the variance of a row's prefix as (Σ x² − n · μ · μ) / (n − 1); the reference forms it as
  Σ (x − μ)² / (n − 1), both sums running over the masked positions. Over the reals these are the same number as soon
  as the mask is 0/1-valued and μ · n equals the masked sum, which is what the definition of the mean gives when the
  prefix really has n = 64 · z elements (0 < z ≤ 8192), and also — trivially, every masked term vanishing — when the
  prefix is empty (z ≤ 0). The last part regroups a sum taken chunk by chunk (16 chunks of 512 positions) into the
  sum over all 8192 positions.
-/
import proofs.«120618_j69157563400282_1_alg».proof.Proof.Spec
import Mathlib.Tactic.LinearCombination
import Mathlib.Data.Fintype.Fin
import Mathlib.Algebra.BigOperators.Fin
import Mathlib.Algebra.BigOperators.Ring.Finset

noncomputable section

open scoped BigOperators

namespace Cert.PrefixNorm

open Idealize.ShloMosaic Idealize.ShloMosaic.ValueIdx

/-- The word 64.0 denotes the real 64. -/
theorem ofBits_w64 : w64 = ((64 : ℝ) : EReal) := by
  simp [w64, Ideal.ofBits, Ideal.ieee, -EReal.coe_mul]; norm_num

/-- The word 1.0 denotes 1. -/
theorem ofBits_w1 : w1 = 1 := by
  simp [w1, Ideal.ofBits, Ideal.ieee, -EReal.coe_mul]; norm_num

/-- The coercion of reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real identity behind the two variance forms: for 0/1 weights w, a number μ with (Σ w) · μ = Σ r·w and
    a number C with C · μ = Σ r·w, the weighted sum of squared deviations from μ is Σ r·w·r − C · μ · μ. -/
theorem real_var_identity {ι : Type*} [Fintype ι] (r w : ι → ℝ) (hw : ∀ i, w i * w i = w i) (μ C : ℝ)
    (h1 : (∑ i, w i) * μ = ∑ i, r i * w i) (h2 : C * μ = ∑ i, r i * w i) :
    ∑ i, ((r i - μ) * w i) * ((r i - μ) * w i) = (∑ i, r i * w i * r i) - C * μ * μ := by
  have h : ∀ i, ((r i - μ) * w i) * ((r i - μ) * w i)
      = r i * w i * r i - 2 * μ * (r i * w i) + μ * μ * w i := by
    intro i; linear_combination (r i - μ) ^ 2 * hw i
  simp_rw [h, Finset.sum_add_distrib, Finset.sum_sub_distrib, ← Finset.mul_sum]
  linear_combination μ * h1 + μ * h2

/-- The prefix indicator as a real number. -/
def indR (zi : ℤ) (l : Fin 8192) : ℝ := if (l.val : ℤ) < zi then 1 else 0

theorem ind_eq_coe (z : SZ.Idx → BitVec 32) (b : Fin 64) (l : Fin 8192) :
    ind z b l = ((indR (z (ix1 b)).toInt l : ℝ) : EReal) := by
  unfold ind indR; split_ifs <;> simp

theorem indR_mul_self (zi : ℤ) (l : Fin 8192) : indR zi l * indR zi l = indR zi l := by
  unfold indR; split_ifs <;> simp

/-- An empty prefix: the indicator vanishes everywhere. -/
theorem indR_of_nonpos {zi : ℤ} (h : zi ≤ 0) (l : Fin 8192) : indR zi l = 0 := by
  unfold indR; rw [if_neg]; omega

/-- A prefix of length 0 ≤ zi ≤ 8192 has exactly zi positions. -/
theorem sum_indR {zi : ℤ} (h0 : 0 ≤ zi) (h : zi ≤ 8192) : ∑ l : Fin 8192, indR zi l = (zi : ℝ) := by
  unfold indR
  rw [Finset.sum_boole]
  have hf : (Finset.univ.filter fun l : Fin 8192 => (l.val : ℤ) < zi)
      = Finset.univ.filter fun l : Fin 8192 => l.val < zi.toNat := by
    ext l; simp only [Finset.mem_filter, Finset.mem_univ, true_and]; omega
  rw [hf, Fin.card_filter_val_lt]
  have hm : min 8192 zi.toNat = zi.toNat := by omega
  rw [hm]
  have hc : ((zi.toNat : ℤ) : ℝ) = (zi : ℝ) := by rw [Int.toNat_of_nonneg h0]
  exact_mod_cast hc

/-- The real identity for doubly indexed data, the form in which the row sums arrive. -/
theorem real_var_identity2 {α β : Type*} [Fintype α] [Fintype β] (r w : α → β → ℝ)
    (hw : ∀ a b, w a b * w a b = w a b) (μ C : ℝ)
    (h1 : (∑ a, ∑ b, w a b) * μ = ∑ a, ∑ b, r a b * w a b) (h2 : C * μ = ∑ a, ∑ b, r a b * w a b) :
    ∑ a, ∑ b, ((r a b - μ) * w a b) * ((r a b - μ) * w a b)
      = (∑ a, ∑ b, r a b * w a b * r a b) - C * μ * μ := by
  have h : ∀ a b, ((r a b - μ) * w a b) * ((r a b - μ) * w a b)
      = r a b * w a b * r a b - 2 * μ * (r a b * w a b) + μ * μ * w a b := by
    intro a b; linear_combination (r a b - μ) ^ 2 * hw a b
  simp_rw [h, Finset.sum_add_distrib, Finset.sum_sub_distrib, ← Finset.mul_sum]
  linear_combination μ * h1 + μ * h2

section
variable (x : SX.Idx → EReal) (z : SZ.Idx → BitVec 32)

/-- Empty prefix (z ≤ 0): every masked term is zero, and cnt · mean · mean is zero too — because cnt = 0 when
    z = 0 (whatever the mean's junk value), and because the mean is 0 / cnt = 0 when cnt is a negative real. -/
theorem num_eq_of_nonpos (b : Fin 64) (hz : (z (ix1 b)).toInt ≤ 0) :
    sum2 x z b - cnt z b * mean x z b * mean x z b
      = ∑ c : Fin 64, ∑ l : Fin 8192, dev x z b c l * dev x z b c l := by
  have hi : ∀ l, ind z b l = 0 := fun l => by rw [ind_eq_coe, indR_of_nonpos hz]; simp
  have h1 : sum1 x z b = 0 := by unfold sum1; simp [hi]
  have h2 : sum2 x z b = 0 := by unfold sum2; simp [hi]
  have hd : ∀ c l, dev x z b c l = 0 := fun c l => by unfold dev; rw [hi, mul_zero]
  have hm : cnt z b * mean x z b * mean x z b = 0 := by
    rcases eq_or_lt_of_le hz with h0 | hneg
    · have hc : cnt z b = 0 := by unfold cnt; rw [h0]; simp
      rw [hc, zero_mul, zero_mul]
    · have hc : cnt z b = ((64 * ((z (ix1 b)).toInt : ℝ) : ℝ) : EReal) := by
        unfold cnt; rw [ofBits_w64, ← EReal.coe_mul]
      have hne : (64 * ((z (ix1 b)).toInt : ℝ) : ℝ) ≠ 0 := by
        have : ((z (ix1 b)).toInt : ℝ) < 0 := by exact_mod_cast hneg
        linarith
      have hmu : mean x z b = 0 := by unfold mean; rw [h1, hc, Ideal.div_coe hne, zero_mul]
      rw [hmu, mul_zero]
  rw [h2, hm, sub_zero]; simp [hd]

end

/-- The row's masked sum and masked sum of squares, over the reals. -/
def S1r (R : SX.Idx → ℝ) (zi : ℤ) (b : Fin 64) : ℝ :=
  ∑ c : Fin 64, ∑ l : Fin 8192, R (ix3 b c l) * indR zi l
def S2r (R : SX.Idx → ℝ) (zi : ℤ) (b : Fin 64) : ℝ :=
  ∑ c : Fin 64, ∑ l : Fin 8192, R (ix3 b c l) * indR zi l * R (ix3 b c l)

section
variable (R : SX.Idx → ℝ) (z : SZ.Idx → BitVec 32)

local notation "XR" => (fun i : SX.Idx => ((R i : ℝ) : EReal))

theorem sum1_coe (b : Fin 64) (zi : ℤ) (hzi : (z (ix1 b)).toInt = zi) :
    sum1 XR z b = ((S1r R zi b : ℝ) : EReal) := by
  subst hzi; unfold sum1 S1r; simp_rw [ind_eq_coe, ← EReal.coe_mul, ← coe_sum]

theorem sum2_coe (b : Fin 64) (zi : ℤ) (hzi : (z (ix1 b)).toInt = zi) :
    sum2 XR z b = ((S2r R zi b : ℝ) : EReal) := by
  subst hzi; unfold sum2 S2r; simp_rw [ind_eq_coe, ← EReal.coe_mul, ← coe_sum]

theorem cnt_coe (b : Fin 64) (zi : ℤ) (hzi : (z (ix1 b)).toInt = zi) :
    cnt z b = ((64 * (zi : ℝ) : ℝ) : EReal) := by
  subst hzi; unfold cnt; rw [ofBits_w64, ← EReal.coe_mul]

/-- Non-empty prefix of finite data (0 < z ≤ 8192): every quantity is a real number, the count 64 · z is the
    number of masked positions, and the real identity applies. -/
theorem num_eq_of_pos (b : Fin 64) (zi : ℤ) (hzi : (z (ix1 b)).toInt = zi) (h0 : 0 < zi) (hz : zi ≤ 8192) :
    sum2 XR z b - cnt z b * mean XR z b * mean XR z b
      = ∑ c : Fin 64, ∑ l : Fin 8192, dev XR z b c l * dev XR z b c l := by
  have hzpos : (0 : ℝ) < (zi : ℝ) := by exact_mod_cast h0
  have hzne : (zi : ℝ) ≠ 0 := ne_of_gt hzpos
  have hC : (64 * (zi : ℝ) : ℝ) ≠ 0 := by positivity
  have hmean : mean XR z b = ((S1r R zi b * (1 / (64 * (zi : ℝ))) : ℝ) : EReal) := by
    unfold mean; rw [sum1_coe R z b zi hzi, cnt_coe z b zi hzi, Ideal.div_coe hC, ← EReal.coe_mul]
  have hdev : ∀ c l, dev XR z b c l
      = (((R (ix3 b c l) - S1r R zi b * (1 / (64 * (zi : ℝ)))) * indR zi l : ℝ) : EReal) := by
    intro c l; unfold dev; rw [hmean, ind_eq_coe, hzi, ← EReal.coe_sub, ← EReal.coe_mul]
  have hW : ∑ _c : Fin 64, ∑ l : Fin 8192, indR zi l = 64 * (zi : ℝ) := by
    rw [sum_indR h0.le hz]; simp
  have h12 : (64 * (zi : ℝ)) * (S1r R zi b * (1 / (64 * (zi : ℝ)))) = S1r R zi b := by field_simp
  have key := real_var_identity2 (fun c l => R (ix3 b c l)) (fun (_ : Fin 64) l => indR zi l)
    (fun _ l => indR_mul_self zi l) (S1r R zi b * (1 / (64 * (zi : ℝ)))) (64 * (zi : ℝ))
    (by rw [hW]; exact h12) h12
  rw [sum2_coe R z b zi hzi, cnt_coe z b zi hzi, hmean]
  simp_rw [hdev]
  rw [← EReal.coe_mul, ← EReal.coe_mul, ← EReal.coe_sub]
  simp_rw [← EReal.coe_mul, ← coe_sum]
  rw [EReal.coe_eq_coe_iff]
  exact key.symm

end

section
variable {x : SX.Idx → EReal} {z : SZ.Idx → BitVec 32}

/-- The kernel's variance is the reference's, for finite data and a prefix length of at most 8192: the divisors are
    the same term, and the numerators agree by the two cases above. -/
theorem varK_eq_varR (hx : ∀ i, ∃ r : ℝ, x i = (r : EReal)) (b : Fin 64) (hz : (z (ix1 b)).toInt ≤ 8192) :
    varK x z b = varR x z b := by
  unfold varK varR
  congr 1
  rcases le_or_gt (z (ix1 b)).toInt 0 with hle | hpos
  · exact num_eq_of_nonpos x z b hle
  · choose R hR using hx
    obtain rfl : x = fun i => ((R i : ℝ) : EReal) := funext hR
    exact num_eq_of_pos R z b _ rfl hpos hz

/-- Hence the two normalised results are the same function. -/
theorem GK_eq_GR (hx : ∀ i, ∃ r : ℝ, x i = (r : EReal)) (hz : ∀ b : Fin 64, (z (ix1 b)).toInt ≤ 8192) :
    GK x z = GR x z := by
  funext i; unfold GK GR; rw [varK_eq_varR hx (i 0) (hz (i 0))]

end

/-- Position j · 512 + l of chunk j, as a bijection between (chunk, offset) pairs and the 8192 positions. -/
def chunkEquiv : Fin 16 × Fin 512 ≃ Fin 8192 where
  toFun p := ⟨p.1.val * 512 + p.2.val, by omega⟩
  invFun i := (⟨i.val / 512, by omega⟩, ⟨i.val % 512, by omega⟩)
  left_inv p := by
    refine Prod.ext (Fin.ext ?_) (Fin.ext ?_)
    · show (p.1.val * 512 + p.2.val) / 512 = p.1.val; omega
    · show (p.1.val * 512 + p.2.val) % 512 = p.2.val; omega
  right_inv i := by
    refine Fin.ext ?_
    show i.val / 512 * 512 + i.val % 512 = i.val; omega

/-- Adding a row chunk by chunk is adding it position by position. -/
theorem sum_chunks_row {M : Type*} [AddCommMonoid M] (g : Fin 8192 → M) :
    ∑ j : Fin 16, ∑ l : Fin 512, g ⟨j.val * 512 + l.val, by omega⟩ = ∑ i : Fin 8192, g i :=
  calc ∑ j : Fin 16, ∑ l : Fin 512, g ⟨j.val * 512 + l.val, by omega⟩
      = ∑ p : Fin 16 × Fin 512, g (chunkEquiv p) :=
        (Fintype.sum_prod_type' (fun j l => g (chunkEquiv (j, l)))).symm
    _ = ∑ i : Fin 8192, g i := Equiv.sum_comp chunkEquiv g

/-- The kernel accumulates the row sums over 16 chunks of 512 positions; exchanging the chunk sum with the channel
    sum and regrouping each channel's chunks gives the sum over all channels and positions. -/
theorem sum_chunks {M : Type*} [AddCommMonoid M] (f : Fin 64 → Fin 8192 → M) :
    ∑ j : Fin 16, ∑ c : Fin 64, ∑ l : Fin 512, f c ⟨j.val * 512 + l.val, by omega⟩
      = ∑ c : Fin 64, ∑ l : Fin 8192, f c l := by
  rw [Finset.sum_comm]
  exact Finset.sum_congr rfl fun c _ => sum_chunks_row (f c)

end Cert.PrefixNorm

end
-- ==== Proof.HostGlue.lean ====
/-
  The host arithmetic around the two kernel regions, read at an index.

  Before region 0 the host reshapes the prefix lengths z : [64] to [64,1,1]; a reshape keeps row-major positions, and
  position b of [64] is position (b,0,0) of [64,1,1]. Between the regions it forms, from region 0's two results
  A1 (row sums) and A2 (row sums of squares), both [64,1,1]:
      cnt  = reshape (64.0 · float z)                 mean = A1 / cnt
      var  = (A2 − cnt · mean · mean) / (cnt − 1.0)   std  = √var
  every operation elementwise, so at index (b,0,0) each is the scalar expression in A1(b,0,0), A2(b,0,0) and
  K b = 64.0 · z[b]. No operation writes an argument's buffer, and region 0 only reads the data through an input
  window, so the arguments hold their launch contents throughout.
-/
import proofs.«120618_j69157563400282_1_alg».proof.Proof.Gen.KernelIdeal.Frame
import proofs.«120618_j69157563400282_1_alg».proof.Proof.Spec
import Idealize.ShloMosaic.Lib.StableHlo.Run
import Idealize.ShloMosaic.Lib.Pipeline.Value
import Idealize.ShloMosaic.Lib.ValueIdx
import Idealize.ShloMosaic.Lib.IdealHost

set_option maxRecDepth 16384

noncomputable section

namespace Cert.PrefixNorm.Kernel.Host

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The launch contents of the three arguments. -/
abbrev X : S64x64x8192.Idx → EReal := m ((c : Thread nD τ).loc main_arg0)
abbrev Z : S64.Idx → BitVec 32 := m ((c : Thread nD τ).loc main_arg2)
/-- Region 0's two results: the row sums and the row sums of squares, as [64,1,1] arrays. -/
abbrev A1 : S64x1x1.Idx → EReal := W2 m ρ c (Proc.devRef .tc main_v1_0)
abbrev A2 : S64x1x1.Idx → EReal := W2 m ρ c (Proc.devRef .tc main_v1_1)

/-! ## The arguments are never written: each buffer's contents walk back to the launch memory -/

theorem W1_arg0 : W1 m ρ c (Proc.devRef .tc main_arg0) = X m c := by
  show StableHlo.after hostOps0 (W0 m ρ c) (Proc.devRef .tc main_arg0) = _
  after_results
theorem W1_arg2 : W1 m ρ c (Proc.devRef .tc main_arg2) = Z m c := by
  show StableHlo.after hostOps0 (W0 m ρ c) (Proc.devRef .tc main_arg2) = _
  after_results
theorem W2_arg2 : W2 m ρ c (Proc.devRef .tc main_arg2) = Z m c :=
  (W2_of_ne m ρ c main_arg2 (by decide)).trans (W1_arg2 m ρ c)
theorem W2_arg0 : W2 m ρ c (Proc.devRef .tc main_arg0) = X m c :=
  ((W2_arr m ρ c 0).trans (((dat0 (V1 m ρ) c).arrAt_in 0 rfl _).trans (A_eq0 (V1 m ρ) c 0))).trans (W1_arg0 m ρ c)
theorem W3_arg0 : W3 m ρ c (Proc.devRef .tc main_arg0) = X m c := by
  refine Eq.trans ?_ (W2_arg0 m ρ c)
  show StableHlo.after hostOps1 (W2 m ρ c) (Proc.devRef .tc main_arg0) = _
  after_results

/-! ## The reshape of the lengths -/

/-- Position b of [64] and position (b,0,0) of [64,1,1] are the same row-major position: (b·1 + 0)·1 + 0 = b. -/
theorem rm (b : Fin 64) : (S64.rowMajor (ix1 b)).val = (S64x1x1.rowMajor (ix3 b 0 0)).val := by
  rw [Shape.rowMajor_val_one, Shape.rowMajor_val_three]
  show b.val = (b.val * 1 + 0) * 1 + 0
  omega

/-- The reshaped lengths at (b,0,0) are z[b]. -/
theorem W1_v0 (b : Fin 64) :
    (W1 m ρ c (Proc.devRef .tc main_v0) : S64x1x1.Idx → BitVec 32) (ix3 b 0 0) = Z m c (ix1 b) := by
  have e : (W1 m ρ c (Proc.devRef .tc main_v0) : S64x1x1.Idx → BitVec 32)
      = shapeCast S64x1x1 (Z m c) shapeCasts_S64_S64x1x1 := by
    show StableHlo.after hostOps0 (W0 m ρ c) (Proc.devRef .tc main_v0) = _
    after_results
    rfl
  rw [e]
  exact shapeCast_apply _ _ _ (ix1 b) (rm b)

/-! ## The statistics between the two regions -/

/-- The element count as the host forms it: the word 64.0 broadcast, times the lengths converted to floats,
    reshaped to [64,1,1]. -/
def cntArr : S64x1x1.Idx → EReal :=
  shapeCast S64x1x1
    (mulf (F := Ideal) (φ := .f32) (broadcastInDim S64 ![] bcast_S_S64 (constant (F := Ideal) S_ .f32 0x42800000#32))
      (sitofp .f32 (W2 m ρ c (Proc.devRef .tc main_arg2) : S64.Idx → BitVec 32)))
    shapeCasts_S64_S64x1x1

/-- The count of row b: 64 · z[b]. -/
def K (b : Fin 64) : EReal := w64 * ((((Z m c (ix1 b)).toInt : ℝ)) : EReal)

/-- The count array at (b,0,0): the reshape reads position b, the broadcast word is 64.0 everywhere, the product is
    elementwise. -/
theorem cntArr_at (b : Fin 64) : cntArr m ρ c (ix3 b 0 0) = K m c b := by
  unfold cntArr
  rw [shapeCast_apply _ _ _ (ix1 b) (rm b), W2_arg2]
  rfl

/-- The mean array is the elementwise quotient A1 / cnt. -/
theorem W3_v6_eq : (W3 m ρ c (Proc.devRef .tc main_v6) : S64x1x1.Idx → EReal)
    = Host.divf (F := Ideal) (φ := .f32) (A1 m ρ c) (cntArr m ρ c) := by
  show StableHlo.after hostOps1 (W2 m ρ c) (Proc.devRef .tc main_v6) = _
  after_results
  rfl

/-- The mean of row b as the host forms it. -/
def M (b : Fin 64) : EReal := Ideal.div (A1 m ρ c (ix3 b 0 0)) (K m c b)

/-- (H5) The mean at (b,0,0). -/
theorem W3_v6 (b : Fin 64) :
    (W3 m ρ c (Proc.devRef .tc main_v6) : S64x1x1.Idx → EReal) (ix3 b 0 0) = M m ρ c b := by
  rw [W3_v6_eq]
  show Ideal.div (A1 m ρ c (ix3 b 0 0)) (cntArr m ρ c (ix3 b 0 0)) = _
  rw [cntArr_at]
  rfl

/-- The standard-deviation array: √((A2 − cnt · mean · mean) / (cnt − 1.0)), elementwise. -/
theorem W3_v13_eq : (W3 m ρ c (Proc.devRef .tc main_v13) : S64x1x1.Idx → EReal)
    = Host.sqrt (F := Ideal) (φ := .f32) (Host.divf (F := Ideal) (φ := .f32)
        (subf (F := Ideal) (φ := .f32) (A2 m ρ c)
          (mulf (F := Ideal) (φ := .f32) (mulf (F := Ideal) (φ := .f32) (cntArr m ρ c) (Host.divf (F := Ideal) (φ := .f32) (A1 m ρ c) (cntArr m ρ c)))
            (Host.divf (F := Ideal) (φ := .f32) (A1 m ρ c) (cntArr m ρ c))))
        (subf (F := Ideal) (φ := .f32) (cntArr m ρ c)
          (broadcastInDim S64x1x1 ![] bcast_S_S64x1x1 (constant (F := Ideal) S_ .f32 0x3F800000#32)))) := by
  show StableHlo.after hostOps1 (W2 m ρ c) (Proc.devRef .tc main_v13) = _
  after_results
  rfl

/-- (H6) The standard deviation at (b,0,0). -/
theorem W3_v13 (b : Fin 64) :
    (W3 m ρ c (Proc.devRef .tc main_v13) : S64x1x1.Idx → EReal) (ix3 b 0 0)
      = Ideal.sqrt (Ideal.div (A2 m ρ c (ix3 b 0 0) - K m c b * M m ρ c b * M m ρ c b) (K m c b - w1)) := by
  rw [W3_v13_eq]
  show Ideal.sqrt (Ideal.div (A2 m ρ c (ix3 b 0 0)
        - cntArr m ρ c (ix3 b 0 0) * Ideal.div (A1 m ρ c (ix3 b 0 0)) (cntArr m ρ c (ix3 b 0 0))
          * Ideal.div (A1 m ρ c (ix3 b 0 0)) (cntArr m ρ c (ix3 b 0 0)))
      (cntArr m ρ c (ix3 b 0 0) - w1)) = _
  rw [cntArr_at]
  rfl

/-- K b is the specification's element count at the launch lengths. -/
theorem K_eq_cnt (b : Fin 64) : K m c b = Cert.PrefixNorm.cnt (Z m c) b := rfl

/-- The two statistics with every abbreviation spelt out. -/
theorem W3_v6_explicit (b : Fin 64) :
    (W3 m ρ c (Proc.devRef .tc main_v6) : S64x1x1.Idx → EReal) (ix3 b 0 0)
      = Ideal.div (A1 m ρ c (ix3 b 0 0)) (w64 * ((((Z m c (ix1 b)).toInt : ℝ)) : EReal)) := W3_v6 m ρ c b
theorem W3_v13_explicit (b : Fin 64) :
    (W3 m ρ c (Proc.devRef .tc main_v13) : S64x1x1.Idx → EReal) (ix3 b 0 0)
      = Ideal.sqrt (Ideal.div
          (A2 m ρ c (ix3 b 0 0)
            - w64 * ((((Z m c (ix1 b)).toInt : ℝ)) : EReal)
              * Ideal.div (A1 m ρ c (ix3 b 0 0)) (w64 * ((((Z m c (ix1 b)).toInt : ℝ)) : EReal))
              * Ideal.div (A1 m ρ c (ix3 b 0 0)) (w64 * ((((Z m c (ix1 b)).toInt : ℝ)) : EReal)))
          (w64 * ((((Z m c (ix1 b)).toInt : ℝ)) : EReal) - w1)) := W3_v13 m ρ c b

end Cert.PrefixNorm.Kernel.Host

end
-- ==== Proof.NormRegion.lean ====
/-
  The normalisation region of the kernel, as one function of the arrays it reads.

  The region runs over a grid of 2 × 16 points. Point (p, q) reads the block of 32 batch rows × 64 channels × 512
  positions of the data at block index (p, 0, q), and the 32 × 1 × 1 blocks of the two row statistics (a mean and a
  standard deviation per batch row) at block index (p, 0, 0); it writes back, at block index (p, 0, q) of the result,
  each data element less its row's mean over its row's standard deviation plus ε. An element of a block sits in its
  array at block index × block size + its coordinate inside the block, so what a point writes is the restriction to
  its block of ONE function of the three whole arrays; the 32 blocks tile the result array (the element at batch row b
  and position l belongs to point 16 · (b / 32) + l / 512), so the array ends holding that function everywhere.
-/
import proofs.«120618_j69157563400282_1_alg».proof.Proof.Gen.KernelIdeal.Frame
import proofs.«120618_j69157563400282_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.PrefixNorm.Kernel.Norm

open Cert.KernelIdeal Cert.KernelIdeal.Gen

variable (V : (c : Dev nD) → (b : Ref sig .tc) → Buf (Elt Ideal) ((c : Thread nD τ).loc b))

/-- The body's arithmetic at one element of a block: the element less its row's mean, over its row's standard
    deviation plus ε — the two row statistics are blocks of one element per row, copied along channels and positions. -/
theorem pay_apply (x0 : Vec Ideal S32x64x512 .f32) (x1 x2 : Vec Ideal S32x1x1 .f32) (r : Fin 32) (c' : Fin 64)
    (l : Fin 512) :
    k1_pay1 (F := Ideal) x0 x1 x2 (ix3 r c' l)
      = Ideal.div (x0 (ix3 r c' l) - x1 (ix3 r 0 0)) (x2 (ix3 r 0 0) + wEps) := by
  unfold k1_pay1
  try dsimp only
  rw [shapeCast_self, shapeCast_self, divf_apply, subf_apply,
    broadcastTo_apply x1 _ (ix3 r c' l) (ix3 r 0 0)
      (fun a => by match a with | ⟨0, _⟩ => rfl | ⟨1, _⟩ => rfl | ⟨2, _⟩ => rfl),
    broadcastTo_apply _ _ (ix3 r c' l) (ix3 r 0 0)
      (fun a => by match a with | ⟨0, _⟩ => rfl | ⟨1, _⟩ => rfl | ⟨2, _⟩ => rfl)]
  rfl

/-- The arrays the four windows move: the data, the two row statistics, the result. -/
theorem arr_data : Pipeline.arrRef spec1 0 = main_arg0 := rfl
theorem arr_mean : Pipeline.arrRef spec1 1 = main_v6 := rfl
theorem arr_std : Pipeline.arrRef spec1 2 = main_v13 := rfl
theorem arr_result : Pipeline.arrRef spec1 3 = main_v14 := rfl

/-- The region's result as one function of its three input arrays: each element less its batch row's mean, over its
    batch row's standard deviation plus ε. -/
def normOf (a0 : S64x64x8192.Idx → EReal) (a1 a2 : S64x1x1.Idx → EReal) : S64x64x8192.Idx → EReal :=
  fun i => Ideal.div (a0 i - a1 (ix3 (n0 := 64) (i 0) (0 : Fin 1) (0 : Fin 1)))
    (a2 (ix3 (n0 := 64) (i 0) (0 : Fin 1) (0 : Fin 1)) + wEps)

theorem zero_offsets : (![0, 0, 0] : Fin 3 → Nat) = fun _ => 0 := funext fun a => by fin_cases a <;> rfl

/-- The windows' block indices at grid point t = 16 p + q (p below 2, q below 16): the data and result windows
    sit at block (p, 0, q), the two row-statistics windows at block (p, 0, 0). -/
theorem idx_facts : ∀ t : Fin cfg1.N,
    win1_0.index t (0 : Fin 3) = t.val / 16 ∧ win1_0.index t (1 : Fin 3) = 0 ∧ win1_0.index t (2 : Fin 3) = t.val % 16
    ∧ win1_1.index t (0 : Fin 3) = t.val / 16 ∧ win1_1.index t (1 : Fin 3) = 0 ∧ win1_1.index t (2 : Fin 3) = 0
    ∧ win1_2.index t (0 : Fin 3) = t.val / 16 ∧ win1_2.index t (1 : Fin 3) = 0 ∧ win1_2.index t (2 : Fin 3) = 0
    ∧ win1_3.index t (0 : Fin 3) = t.val / 16 ∧ win1_3.index t (1 : Fin 3) = 0 ∧ win1_3.index t (2 : Fin 3) = t.val % 16 :=
  (by decide +kernel : ∀ t : Fin grid1.N, _)

/-- One element of what a point writes back, from the three blocks it read: if the blocks are the arrays read at the
    matching places, it is the region's function there. -/
theorem point_eq (x0 : Vec Ideal S32x64x512 .f32) (x1 x2 : Vec Ideal S32x1x1 .f32)
    (a0 : S64x64x8192.Idx → EReal) (a1 a2 : S64x1x1.Idx → EReal)
    (r : Fin 32) (c' : Fin 64) (l : Fin 512) (i : S64x64x8192.Idx)
    (h0 : x0 (ix3 r c' l) = a0 i)
    (h1 : x1 (ix3 r 0 0) = a1 (ix3 (n0 := 64) (i 0) (0 : Fin 1) (0 : Fin 1)))
    (h2 : x2 (ix3 r 0 0) = a2 (ix3 (n0 := 64) (i 0) (0 : Fin 1) (0 : Fin 1))) :
    k1_pay1 (F := Ideal) x0 x1 x2 (ix3 r c' l) = normOf a0 a1 a2 i := by
  rw [pay_apply, h0, h1, h2]; rfl

/-- What a point writes back is its block of the region's function of the three input arrays as the region finds
    them: the data block sits where the result block sits, and the statistics blocks hold the rows of that block. -/
theorem flushed_eq (c : Dev nD) (t : Fin cfg1.N) :
    (dat1 V c).flushed 3 t
      = ((cfg1.win 3).blk t).view.read (Elt Ideal) (normOf (V c main_arg0) (V c main_v6) (V c main_v13)) := by
  show (cfg1.win 3).cut (grid1.coords t) ((dat1 V c).after 3 t) = _
  rw [after1_3]
  unfold out1_3
  rw [View.canon_unit_zero zero_offsets]
  simp only [View.ld_unit_zero (S := S32x64x512) zero_offsets, View.ld_unit_zero (S := S32x1x1) zero_offsets]
  obtain ⟨e00, e01, e02, e10, e11, e12, e20, e21, e22, e30, e31, e32⟩ := idx_facts t
  funext j
  have hj0 : (j 0).val < 32 := (j 0).isLt
  have hj1 : (j 1).val < 64 := (j 1).isLt
  have hj2 : (j 2).val < 512 := (j 2).isLt
  show k1_pay1 (F := Ideal) (iblk1 V c 0 t) (iblk1 V c 1 t) (iblk1 V c 2 t) ((cfg1.win 3).xinj (grid1.coords t) j)
    = normOf (V c main_arg0) (V c main_v6) (V c main_v13) (((cfg1.win 3).blk t).view.emb j)
  have hx : (cfg1.win 3).xinj (grid1.coords t) j
      = ix3 (⟨(j 0).val, hj0⟩ : Fin 32) (⟨(j 1).val, hj1⟩ : Fin 64) (⟨(j 2).val, hj2⟩ : Fin 512) :=
    funext fun a => match a with | ⟨0, _⟩ => rfl | ⟨1, _⟩ => rfl | ⟨2, _⟩ => rfl
  refine (congrArg (k1_pay1 (F := Ideal) (iblk1 V c 0 t) (iblk1 V c 1 t) (iblk1 V c 2 t)) hx).trans ?_
  refine point_eq _ _ _ _ _ _ _ _ _ _ ?_ ?_ ?_
  · show V c main_arg0 (((cfg1.win 0).blk t).view.emb _) = V c main_arg0 (((cfg1.win 3).blk t).view.emb j)
    refine congrArg (V c main_arg0) (funext fun a => Fin.ext ?_)
    match a with
    | ⟨0, _⟩ => show win1_0.index t (0 : Fin 3) * 32 + 1 * (j 0).val = win1_3.index t (0 : Fin 3) * 32 + 1 * (j 0).val; omega
    | ⟨1, _⟩ => show win1_0.index t (1 : Fin 3) * 64 + 1 * (j 1).val = win1_3.index t (1 : Fin 3) * 64 + 1 * (j 1).val; omega
    | ⟨2, _⟩ => show win1_0.index t (2 : Fin 3) * 512 + 1 * (j 2).val = win1_3.index t (2 : Fin 3) * 512 + 1 * (j 2).val; omega
  · show V c main_v6 (((cfg1.win 1).blk t).view.emb _) = V c main_v6 _
    refine congrArg (V c main_v6) (funext fun a => Fin.ext ?_)
    match a with
    | ⟨0, _⟩ => show win1_1.index t (0 : Fin 3) * 32 + 1 * (j 0).val = win1_3.index t (0 : Fin 3) * 32 + 1 * (j 0).val; omega
    | ⟨1, _⟩ => show win1_1.index t (1 : Fin 3) * 1 + 1 * 0 = 0; omega
    | ⟨2, _⟩ => show win1_1.index t (2 : Fin 3) * 1 + 1 * 0 = 0; omega
  · show V c main_v13 (((cfg1.win 2).blk t).view.emb _) = V c main_v13 _
    refine congrArg (V c main_v13) (funext fun a => Fin.ext ?_)
    match a with
    | ⟨0, _⟩ => show win1_2.index t (0 : Fin 3) * 32 + 1 * (j 0).val = win1_3.index t (0 : Fin 3) * 32 + 1 * (j 0).val; omega
    | ⟨1, _⟩ => show win1_2.index t (1 : Fin 3) * 1 + 1 * 0 = 0; omega
    | ⟨2, _⟩ => show win1_2.index t (2 : Fin 3) * 1 + 1 * 0 = 0; omega

/-- An index of the result array is in point t's block iff each coordinate lies in the block's range on its axis. -/
theorem mem_blk (t : Fin cfg1.N) (i : S64x64x8192.Idx) :
    i ∈ ((cfg1.win 3).blk t).view.set ↔ ∀ a : Fin 3, win1_3.index t a * S32x64x512.size a ≤ (i a).val
      ∧ (i a).val < win1_3.index t a * S32x64x512.size a + S32x64x512.size a := by
  show i ∈ ((View.whole main_v14).slice (win1_3.rect t)).set ↔ _
  rw [View.set_slice_whole, Rect.mem_set_unit]
  exact Iff.rfl

/-- The blocks tile the array: the element at batch row b and position l is written by the point
    16 · (b / 32) + l / 512. -/
theorem cover (i : S64x64x8192.Idx) :
    ∃ t : Fin cfg1.N, (cfg1.win 3).flush t = true ∧ i ∈ ((cfg1.win 3).blk t).view.set := by
  have hi0 : (i 0).val < 64 := (i 0).isLt
  have hi1 : (i 1).val < 64 := (i 1).isLt
  have hi2 : (i 2).val < 8192 := (i 2).isLt
  have hN : cfg1.N = 32 := N_1
  let t : Fin cfg1.N := ⟨(i 0).val / 32 * 16 + (i 2).val / 512, by rw [hN]; omega⟩
  have ht : t.val = (i 0).val / 32 * 16 + (i 2).val / 512 := rfl
  obtain ⟨-, -, -, -, -, -, -, -, -, e30, e31, e32⟩ := idx_facts t
  refine ⟨t, flush1_3 t, ?_⟩
  rw [mem_blk]
  intro a
  match a with
  | ⟨0, _⟩ =>
    show win1_3.index t (0 : Fin 3) * 32 ≤ (i 0).val ∧ (i 0).val < win1_3.index t (0 : Fin 3) * 32 + 32
    omega
  | ⟨1, _⟩ =>
    show win1_3.index t (1 : Fin 3) * 64 ≤ (i 1).val ∧ (i 1).val < win1_3.index t (1 : Fin 3) * 64 + 64
    omega
  | ⟨2, _⟩ =>
    show win1_3.index t (2 : Fin 3) * 512 ≤ (i 2).val ∧ (i 2).val < win1_3.index t (2 : Fin 3) * 512 + 512
    omega

/-- The result array after the region is the region's function of the three input arrays as the region finds them. -/
theorem norm_final (c : Dev nD) :
    (dat1 V c).arrAt 3 cfg1.N = normOf (V c main_arg0) (V c main_v6) (V c main_v13) :=
  (dat1 V c).arrAt_eq_of_cover 3 (normOf (V c main_arg0) (V c main_v6) (V c main_v13))
    (fun t _ => flushed_eq V c t) cover

/-- The region's function read at an element by its coordinates. -/
theorem normOf_apply (a0 : S64x64x8192.Idx → EReal) (a1 a2 : S64x1x1.Idx → EReal) (b c' : Fin 64) (l : Fin 8192) :
    normOf a0 a1 a2 (ix3 b c' l) = Ideal.div (a0 (ix3 b c' l) - a1 (ix3 b 0 0)) (a2 (ix3 b 0 0) + wEps) := rfl

/-- The result array after the region, read at an element. -/
theorem norm_final_apply (c : Dev nD) (b c' : Fin 64) (l : Fin 8192) :
    (dat1 V c).arrAt 3 cfg1.N (ix3 b c' l)
      = normOf (V c main_arg0) (V c main_v6) (V c main_v13) (ix3 b c' l) :=
  congrFun (norm_final V c) (ix3 b c' l)

end Cert.PrefixNorm.Kernel.Norm

end
-- ==== Proof.KernelRun.lean ====
/-
  The program's run ends with the result array at the contents the second region's write-backs leave, and the
  arguments as launched.

  The program is two pipelined regions among host operations. The buffer contents at each boundary between them are a
  fold from the launch memory: a host stretch applies its operations, a region leaves its input arrays as entered and
  each output array at what its write-backs, folded over all the grid's points, leave. Every weakly fair execution
  terminates with every unscoped buffer at the last boundary's contents; read at the result array this is the second
  region's folded write-backs, and read at an argument array — which no host operation and no region writes — it is
  the launch memory.
-/
import proofs.«120618_j69157563400282_1_alg».proof.Proof.Gen.KernelIdeal.Frame

set_option maxRecDepth 16384

noncomputable section

namespace Cert.PrefixNorm.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's resource element: the staging cells of both regions' pipelines, with their launch tokens. -/
abbrev u₀ : UR sig nD τ := initOf (Pipeline.cells cfgs cellOf_inj) (Pipeline.launchToks cfgs cellOf_inj)

/-- The user component is the whole of the algebra's user part, so owning an element of it is owning its embedding. -/
theorem ownU_eq_own (u : UR sig nD τ) : (ownU u : sProp 𝕄) = BI.own (emb₁ u) := rfl

/-- The launch element funds the pipelines' staging cells as it stands, and no core needs a ghost resource of its
    own (each gets `emp`). -/
theorem launch_funds :
    (ownU u₀ : sProp 𝕄) ⊢ |={Set.univ}=> iprop(BI.own (emb₁ u₀) ∗ bigSep Finset.univ fun _ : Dev nD => (BI.emp : sProp 𝕄)) := by
  rw [BI.bigSep_emp_const, ownU_eq_own]
  iintro Hu
  imodintro
  isplitl [Hu]
  · iexact Hu
  · iempintro

/-- The thread state the first segment is entered from: every unscoped buffer at the launch memory, the generator
    register at some state, nothing owed. -/
abbrev T₀ (c : Dev nD) : sProp 𝕄 :=
  iprop(StableHlo.held (c : Thread nD τ) (Pipeline.ucRefs τ sig) (W0 m ρ c) ∗ R c)

/-- What the launch deals a core — its unscoped buffers at the launch memory, its generator register, an empty
    debt — is that first thread state; the semaphores at zero, the launch credit and the level facts are not needed. -/
theorem first_state :
    iprop((bigSep Finset.univ fun c : Dev nD => iprop(unscopedBufs c (fun b => m ((c : Thread nD τ).loc b)) ∗ unscopedSems0 c
          ∗ owes (c : Thread nD τ) ((0 : Dev nD → CellTallies nD τ sig Unit) c) ∅ ∗ Pipeline.launchCred (0 : Dev nD → CellTallies nD τ sig Unit) c
          ∗ prngReg c (ρ c) ∗ (BI.emp : sProp 𝕄))) ∗ levAts L lv)
      ⊢ (|={Set.univ}=> bigSep Finset.univ (T₀ m ρ) : sProp 𝕄) := by
  refine Pipeline.initEach L lv fun c => ?_
  rw [show unscopedBufs c (fun b => m ((c : Thread nD τ).loc b))
      = StableHlo.held (c : Thread nD τ) (Pipeline.ucRefs τ sig) (W0 m ρ c) from Pipeline.unscopedBufs_held c (W0 m ρ c)]
  iintro ⟨⟨Hbufs, -, Howes, -, Hreg, -⟩, -⟩
  imodintro
  isplitl [Hbufs]
  · iexact Hbufs
  isplitl [Hreg]
  · iexists (ρ c); iexact Hreg
  · iexists ∅; iexact Howes

/-- The last thread state read against a final state: a buffer held at the full share at given contents has those
    contents in the memory, so every unscoped buffer of the final memory is at the last boundary's contents. -/
theorem last_read (c : Dev nD) (s' : Phys nD τ sig (Elt F)) :
    iprop(Tₙ m ρ c ∗ SI s') ⊢ (|={Set.univ}=> iprop(⌜∀ b ∈ Pipeline.ucRefs τ sig, s'.mem.mem (((c : Thread nD τ)).1, b) = W4 m ρ c b⌝ ∗ SI s') : sProp 𝕄) := by
  iintro ⟨⟨Hbufs, -⟩, Hst⟩
  imodintro
  unfold StableHlo.held
  iapply (pointsTo_read_all (Pipeline.ucRefs τ sig) (fun b => (((c : Thread nD τ)).1, b)) (W4 m ρ c) s')
  isplitl [Hbufs]
  · iexact Hbufs
  · iexact Hst

set_option backward.isDefEq.respectTransparency.types false in
/-- From any memory with zero counters, every weakly fair execution of the program on the TensorCores terminates,
    nothing faulting, and every final state has the result array at the last boundary's contents and the three
    argument arrays as launched. The program is the run of its four segments, each pipeline entered once; their
    thread states chain (each segment is entered from exactly what the one before leaves); the launch makes the first
    and the last is read against the final state, at the result array as it stands and at each argument walked back
    through the fold to the launch memory. -/
theorem run_value : θ_run defs (onTc (τ := τ) (main (F := F))) ⟨m, fun _ => 0, ρ⟩ (fun r => ∀ c : Dev nD,
      r.2.mem ((c.tc : Thread nD τ).loc main_v14) = W4 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (hmain := fun c Q => by rw [main_run m ρ c])
    (hnd := by
      rw [show Pipeline.Seg.pipes (segs m ρ) = [0, 1] from rfl]
      decide)
    (O₀ := 0) (hL := fun _ _ => rfl) (G := fun _ => iprop(emp)) (u₀ := u₀)
    (hu₀ := launch_funds)
    (T₀ := T₀ m ρ) (Tₙ := Tₙ m ρ)
    (hch := ⟨fun _ => .rfl, fun _ => .rfl, fun _ => .rfl, fun _ => .rfl, fun _ => .rfl⟩)
    (hinit := first_state m ρ)
    (QY := fun c s => ∀ b ∈ Pipeline.ucRefs τ sig, s.mem (((c : Thread nD τ)).1, b) = W4 m ρ c b)
    (hfin := last_read m ρ)
    (hQ := fun s h c =>
      ⟨h c _ (mem_uc main_v14 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

/-- The result array is the second region's fourth window (its one output), so its contents at the last boundary are
    that window's write-backs folded over all of the region's grid points. -/
theorem W4_result (c : Dev nD) :
    W4 m ρ c (Proc.devRef .tc main_v14) = (dat1 (V3 m ρ) c).arrAt 3 cfg1.N :=
  W4_arr m ρ c 3

end Cert.PrefixNorm.Kernel.Run

end
-- ==== Proof.KernelValue.lean ====
/-
  The kernel program's result array is the specification's `GK` of the launched data and lengths.

  Three bridges close the kernel side.
  * The reduction region totals each batch row chunk by chunk (16 chunks of 512 positions) with the indicator written
    per chunk; re-indexing (chunk, lane) ↦ position 512·chunk + lane turns a row's total into the specification's
    single sum over all 8192 positions (and likewise for the squares).
  * The host arithmetic between the regions turns the two totals into the prefix mean and the square root of the
    variance in the kernel's form.
  * The normalisation region writes (x − mean)/(√var + ε) at every index, reading the mean and the deviation of the
    index's batch row.
-/
import proofs.«120618_j69157563400282_1_alg».proof.Proof.ReduceRun
import proofs.«120618_j69157563400282_1_alg».proof.Proof.Algebra
import proofs.«120618_j69157563400282_1_alg».proof.Proof.HostGlue
import proofs.«120618_j69157563400282_1_alg».proof.Proof.NormRegion
import proofs.«120618_j69157563400282_1_alg».proof.Proof.KernelRun

noncomputable section

open scoped BigOperators
open Idealize.ShloMosaic Idealize.ShloMosaic.TcCoe Idealize.SL.Sem Idealize.ShloMosaic.ValueIdx

namespace Cert.PrefixNorm.Kernel

open Cert.KernelIdeal Cert.KernelIdeal.Gen Cert.PrefixNorm

/-! ## Chunked totals are the specification's sums -/

/-- For a chunk number below 16 the global position is 512·chunk + lane. -/
theorem pos_of_lt (k : Fin 16) (l : Fin 512) :
    pos k.val l = (⟨k.val * 512 + l.val, by have := k.isLt; have := l.isLt; omega⟩ : Fin 8192) :=
  Fin.ext (by show (k.val % 16) * 512 + l.val = k.val * 512 + l.val; rw [Nat.mod_eq_of_lt k.isLt])

/-- The chunk's indicator is the specification's indicator at that position. -/
theorem chunkInd_of_lt (z : SZ.Idx → BitVec 32) (b : Fin 64) (k : Fin 16) (l : Fin 512) :
    chunkInd (k.val % 16) (z (ix1 b)) l
      = ind z b (⟨k.val * 512 + l.val, by have := k.isLt; have := l.isLt; omega⟩ : Fin 8192) := by
  unfold chunkInd ind
  rw [Nat.mod_eq_of_lt k.isLt]

/-- A batch row's sixteen chunk sums add up to the specification's prefix sum. -/
theorem rowTotal_eq_sum1 (X : S64x64x8192.Idx → EReal) (Zr : S64x1x1.Idx → BitVec 32) (z : SZ.Idx → BitVec 32)
    (b : Fin 64) (hz : Zr (ix3 b 0 0) = z (ix1 b)) : rowTotal X Zr b = sum1 X z b := by
  unfold rowTotal sum1
  rw [Finset.sum_range (fun k => chunkSum X Zr b k), ← sum_chunks (fun c' p => X (ix3 b c' p) * ind z b p)]
  refine Finset.sum_congr rfl fun k _ => ?_
  unfold chunkSum
  refine Finset.sum_congr rfl fun c' _ => Finset.sum_congr rfl fun l _ => ?_
  rw [pos_of_lt k l, hz, chunkInd_of_lt z b k l]

/-- Likewise for the squares. -/
theorem sqTotal_eq_sum2 (X : S64x64x8192.Idx → EReal) (Zr : S64x1x1.Idx → BitVec 32) (z : SZ.Idx → BitVec 32)
    (b : Fin 64) (hz : Zr (ix3 b 0 0) = z (ix1 b)) : sqTotal X Zr b = sum2 X z b := by
  unfold sqTotal sum2
  rw [Finset.sum_range (fun k => chunkSq X Zr b k),
    ← sum_chunks (fun c' p => X (ix3 b c' p) * ind z b p * X (ix3 b c' p))]
  refine Finset.sum_congr rfl fun k _ => ?_
  unfold chunkSq
  refine Finset.sum_congr rfl fun c' _ => Finset.sum_congr rfl fun l _ => ?_
  rw [pos_of_lt k l, hz, chunkInd_of_lt z b k l]

/-! ## The program's run, read -/

variable (m : (ℓ : Loc nD τ sig) → Buf (Elt Ideal) ℓ) (ρ : Dev nD → PrngReg) (c : Dev nD)

/-- The reduction region's first result at batch row b is the prefix sum of the launched data. -/
theorem A1_eq (b : Fin 64) : Host.A1 m ρ c (ix3 b 0 0) = sum1 (Host.X m c) (Host.Z m c) b := by
  have e : Host.A1 m ρ c = sumArr (dataOf (V1 m ρ) c) (lenOf (V1 m ρ) c) :=
    (W2_arr m ρ c 2).trans (final_sumArr (V1 m ρ) c)
  rw [e]
  show rowTotal (dataOf (V1 m ρ) c) (lenOf (V1 m ρ) c) b = _
  rw [show dataOf (V1 m ρ) c = Host.X m c from Host.W1_arg0 m ρ c]
  exact rowTotal_eq_sum1 _ _ _ b (Host.W1_v0 m ρ c b)

/-- Its second result is the prefix sum of squares. -/
theorem A2_eq (b : Fin 64) : Host.A2 m ρ c (ix3 b 0 0) = sum2 (Host.X m c) (Host.Z m c) b := by
  have e : Host.A2 m ρ c = sqArr (dataOf (V1 m ρ) c) (lenOf (V1 m ρ) c) :=
    (W2_arr m ρ c 3).trans (final_sqArr (V1 m ρ) c)
  rw [e]
  show sqTotal (dataOf (V1 m ρ) c) (lenOf (V1 m ρ) c) b = _
  rw [show dataOf (V1 m ρ) c = Host.X m c from Host.W1_arg0 m ρ c]
  exact sqTotal_eq_sum2 _ _ _ b (Host.W1_v0 m ρ c b)

/-- The host's mean is the specification's. -/
theorem M_eq (b : Fin 64) : Host.M m ρ c b = mean (Host.X m c) (Host.Z m c) b := by
  unfold Host.M mean
  rw [A1_eq m ρ c b, Host.K_eq_cnt m c b]

/-- THE RESULT ARRAY: after the run it holds the specification's normalisation with the kernel's form of the variance. -/
theorem result_eq : W4 m ρ c (Proc.devRef .tc main_v14) = GK (Host.X m c) (Host.Z m c) := by
  rw [Run.W4_result m ρ c, Norm.norm_final (V3 m ρ) c]
  funext i
  obtain ⟨b, c', l, rfl⟩ : ∃ (b c' : Fin 64) (l : Fin 8192), i = ix3 b c' l := ⟨i 0, i 1, i 2, eq_ix3 i⟩
  rw [Norm.normOf_apply]
  have h0 : @Eq EReal ((V3 m ρ c main_arg0 : S64x64x8192.Idx → EReal) (ix3 b c' l)) (Host.X m c (ix3 b c' l)) :=
    congrFun (Host.W3_arg0 m ρ c) _
  have h1 : @Eq EReal ((V3 m ρ c main_v6 : S64x1x1.Idx → EReal) (ix3 b 0 0)) (mean (Host.X m c) (Host.Z m c) b) :=
    (Host.W3_v6 m ρ c b).trans (M_eq m ρ c b)
  have h2 : @Eq EReal ((V3 m ρ c main_v13 : S64x1x1.Idx → EReal) (ix3 b 0 0))
      (Ideal.sqrt (varK (Host.X m c) (Host.Z m c) b)) :=
    (Host.W3_v13 m ρ c b).trans (by rw [A2_eq m ρ c b, M_eq m ρ c b, Host.K_eq_cnt m c b]; rfl)
  exact (congrArg₂ Ideal.div (congrArg₂ (fun u v : EReal => u - v) h0 h1) (congrArg (fun u : EReal => u + wEps) h2)).trans rfl

end Cert.PrefixNorm.Kernel

end
-- ==== Proof.RefValue.lean ====
/-
  The reference program, read one operation at a time, computes the specification GR.

  The program builds the prefix indicator from an iota and a signed comparison with the row's length, converts it to
  a float, and copies it along the channels; the count is 64.0 times the length read as a signed integer. Its two sums
  run over the channel and position axes together: at a batch row b such a sum is the initial value (the word 0.0, the
  extended real 0) plus the sum of the operand over the indices whose batch coordinate is b, and those indices are
  exactly (b, c, l) for c below 64 and l below 8192 — so it is the double sum the specification writes. The mean is
  the first sum over the count, the variance the sum of the squared masked deviations over the count less one, and
  the result the deviation over the square root of the variance plus ε; each is the specification's own term once
  the copies along unit axes are read at their source index.
-/
import proofs.«120618_j69157563400282_1_alg».proof.Proof.Gen.ReferenceIdeal.Read
import proofs.«120618_j69157563400282_1_alg».proof.Proof.Spec
import Idealize.ShloMosaic.Lib.ValueIdx
import Idealize.ShloMosaic.Lib.IdealHost
import Idealize.ShloMosaic.Lib.WordArith
import Idealize.ShloMosaic.PureOps.Ideal.Laws

noncomputable section

open scoped BigOperators

namespace Cert.PrefixNorm.Ref

open Idealize.ShloMosaic Idealize.ShloMosaic.ValueIdx Cert.ReferenceIdeal Cert.ReferenceIdeal.Read

/-- Dropping the two summed axes of a data index leaves its batch coordinate. -/
theorem drop_eq_iff (h : SX.ReducesTo [1, 2] SZ) (i : SX.Idx) (b : Fin 64) :
    h.drop i = ix1 b ↔ i 0 = b := by
  constructor
  · intro e
    have e0 := congrFun e 0
    apply Fin.ext
    have := Shape.ReducesTo.drop_apply_val_of_eq h i 0 0
    rw [e0] at this
    exact this.symm
  · intro e
    funext a
    match a with
    | ⟨0, _⟩ =>
      apply Fin.ext
      have := Shape.ReducesTo.drop_apply_val_of_eq h i 0 0
      rw [e] at this
      exact this

/-- The host's sum over channels and positions, read at a batch row: the initial value plus the double sum. -/
theorem hostSum_row (h : SX.ReducesTo [1, 2] SZ) (y : SX.Idx → EReal) (init : EReal) (b : Fin 64) :
    Ideal.hostReduceAdd h y init (ix1 b) = init + ∑ c : Fin 64, ∑ l : Fin 8192, y (ix3 b c l) := by
  unfold Ideal.hostReduceAdd
  congr 1
  rw [← Finset.sum_product']
  refine Finset.sum_nbij' (fun i => (i 1, i 2)) (fun p => ix3 b p.1 p.2) ?_ ?_ ?_ ?_ ?_
  · intro i _; exact Finset.mem_product.2 ⟨Finset.mem_univ _, Finset.mem_univ _⟩
  · intro p _
    exact Finset.mem_filter.2 ⟨Finset.mem_univ _, (drop_eq_iff h _ b).2 rfl⟩
  · intro i hi
    have hb := (drop_eq_iff h i b).1 (Finset.mem_filter.1 hi).2
    rw [← hb]; exact (eq_ix3 i).symm
  · intro p _; rfl
  · intro i hi
    have hb := (drop_eq_iff h i b).1 (Finset.mem_filter.1 hi).2
    rw [← hb]; exact congrArg y (eq_ix3 i)

/-- A one-bit comparison word read as a float: the signed comparison of a position below 8192 with a 32-bit word
    is the comparison of the integers, 1 when it holds and 0 otherwise. -/
theorem mask_word (l : Fin 8192) (w : BitVec 32) :
    FloatOps.uitofp (F := Ideal) .f32 (IntOp.cmpi .slt (BitVec.ofNat 32 l.val) w)
      = if (l.val : ℤ) < w.toInt then 1 else 0 := by
  have hl : (BitVec.ofNat 32 l.val).toInt = (l.val : ℤ) :=
    WordArith.toInt_ofNat_small l.val (by have := l.isLt; omega)
  show (((BitVec.ofBool ((BitVec.ofNat 32 l.val).slt w)).toNat : ℝ) : EReal) = _
  rw [BitVec.slt, hl]
  by_cases h : (l.val : ℤ) < w.toInt
  · rw [if_pos h, decide_eq_true h]; simp
  · rw [if_neg h, decide_eq_false h]; simp

/-- The mask, before it is copied along the channels, is the prefix indicator. -/
theorem mask_row (z : SZ.Idx → BitVec 32) (b : Fin 64) (l : Fin 8192) :
    val_main_v7 (F := Ideal) z (ix3 b 0 l) = ind z b l := by
  rw [val_main_v7_apply, val_main_v6_apply, val_main_v5_apply, val_main_v3_apply, val_main_v1_apply,
    val_main_v0_apply, val_main_v4_apply, val_main_v2_apply]
  have e : idx_main_v2 (idx_main_v4 (idx_main_v6 (ix3 b (0 : Fin 1) l))) = ix1 b :=
    funext fun a => match a with | ⟨0, _⟩ => rfl
  rw [e]
  exact mask_word l (z (ix1 b))

/-- The mask copied along the channels (its first use: the masked data). -/
theorem mask_at (z : SZ.Idx → BitVec 32) (b c : Fin 64) (l : Fin 8192) :
    val_main_v11 (F := Ideal) z (ix3 b c l) = ind z b l := by
  have e : idx_main_v11 (ix3 b c l) = ix3 b (0 : Fin 1) l :=
    funext fun a => match a with | ⟨0, _⟩ => rfl | ⟨1, _⟩ => rfl | ⟨2, _⟩ => rfl
  rw [val_main_v11_apply, e, mask_row]

/-- The mask copied along the channels (its second use: the masked deviations). -/
theorem mask_at' (z : SZ.Idx → BitVec 32) (b c : Fin 64) (l : Fin 8192) :
    val_main_v18 (F := Ideal) z (ix3 b c l) = ind z b l := by
  have e : idx_main_v18 (ix3 b c l) = ix3 b (0 : Fin 1) l :=
    funext fun a => match a with | ⟨0, _⟩ => rfl | ⟨1, _⟩ => rfl | ⟨2, _⟩ => rfl
  rw [val_main_v18_apply, e, mask_row]

/-- The element count: 64.0 times the row's length read as a signed integer. -/
theorem cnt_at (z : SZ.Idx → BitVec 32) (b : Fin 64) :
    val_main_v10 (F := Ideal) z (ix1 b) = cnt z b := by
  rw [val_main_v10_apply, val_main_v9_apply, val_main_cst_apply, val_main_v8_apply]; rfl

/-- The first two-axis sum is the prefix's sum. -/
theorem sum1_at (x : SX.Idx → EReal) (z : SZ.Idx → BitVec 32) (b : Fin 64) :
    val_main_v13 (F := Ideal) x z (ix1 b) = sum1 x z b := by
  unfold val_main_v13
  rw [hostReduceAdd_apply, hostSum_row, val_main_cst_0_apply]
  show Ideal.ofBits .f32 0x00000000#32 + _ = _
  rw [Ideal.ofBits_zero_f32, zero_add]
  unfold sum1
  refine Finset.sum_congr rfl fun c _ => Finset.sum_congr rfl fun l _ => ?_
  rw [val_main_v12_apply, mask_at]; rfl

/-- The quotient of the two is the prefix mean. -/
theorem mean_at (x : SX.Idx → EReal) (z : SZ.Idx → BitVec 32) (b : Fin 64) :
    val_main_v14 (F := Ideal) x z (ix1 b) = mean x z b := by
  rw [val_main_v14_apply, sum1_at, cnt_at]; rfl

/-- The mean copied to every element of its row (its first use). -/
theorem mean_bc (x : SX.Idx → EReal) (z : SZ.Idx → BitVec 32) (b c : Fin 64) (l : Fin 8192) :
    val_main_v16 (F := Ideal) x z (ix3 b c l) = mean x z b := by
  have e : idx_main_v15 (idx_main_v16 (ix3 b c l)) = ix1 b :=
    funext fun a => match a with | ⟨0, _⟩ => rfl
  rw [val_main_v16_apply, val_main_v15_apply, e, mean_at]

/-- The mean copied to every element of its row (its second use). -/
theorem mean_bc' (x : SX.Idx → EReal) (z : SZ.Idx → BitVec 32) (b c : Fin 64) (l : Fin 8192) :
    val_main_v27 (F := Ideal) x z (ix3 b c l) = mean x z b := by
  have e : idx_main_v26 (idx_main_v27 (ix3 b c l)) = ix1 b :=
    funext fun a => match a with | ⟨0, _⟩ => rfl
  rw [val_main_v27_apply, val_main_v26_apply, e, mean_at]

/-- The masked deviation from the mean. -/
theorem dev_at (x : SX.Idx → EReal) (z : SZ.Idx → BitVec 32) (b c : Fin 64) (l : Fin 8192) :
    val_main_v19 (F := Ideal) x z (ix3 b c l) = dev x z b c l := by
  rw [val_main_v19_apply, val_main_v17_apply, mean_bc, mask_at']; rfl

/-- The second two-axis sum, over the squared deviations, divided by the count less one: the variance. -/
theorem var_at (x : SX.Idx → EReal) (z : SZ.Idx → BitVec 32) (b : Fin 64) :
    val_main_v24 (F := Ideal) x z (ix1 b) = varR x z b := by
  rw [val_main_v24_apply, val_main_v23_apply, cnt_at, val_main_v22_apply, val_main_cst_2_apply]
  unfold val_main_v21
  rw [hostReduceAdd_apply, hostSum_row, val_main_cst_1_apply]
  show Ideal.div (Ideal.ofBits .f32 0x00000000#32 + _) _ = _
  rw [Ideal.ofBits_zero_f32, zero_add]
  unfold varR
  congr 1
  refine Finset.sum_congr rfl fun c _ => Finset.sum_congr rfl fun l _ => ?_
  rw [val_main_v20_apply, dev_at]; rfl

/-- The divisor of the last step: the standard deviation plus ε, copied to every element of its row. -/
theorem den_at (x : SX.Idx → EReal) (z : SZ.Idx → BitVec 32) (b c : Fin 64) (l : Fin 8192) :
    val_main_v32 (F := Ideal) x z (ix3 b c l) = Ideal.sqrt (varR x z b) + wEps := by
  have e : idx_main_v29 (idx_main_v32 (ix3 b c l)) = ix1 b :=
    funext fun a => match a with | ⟨0, _⟩ => rfl
  rw [val_main_v32_apply, val_main_v31_apply, val_main_v29_apply, e, val_main_v25_apply, var_at,
    val_main_v30_apply, val_main_cst_3_apply]
  rfl

/-- The reference program's result is the specification with the reference's variance. -/
theorem ref_eq (x : SX.Idx → EReal) (z : SZ.Idx → BitVec 32) :
    val_main_v33 (F := Ideal) x z = GR x z := by
  funext i
  obtain ⟨b, c, l, rfl⟩ : ∃ b c l, i = ix3 b c l := ⟨i 0, i 1, i 2, eq_ix3 i⟩
  rw [val_main_v33_apply, val_main_v28_apply, mean_bc', den_at]
  rfl

end Cert.PrefixNorm.Ref

end
-- ==== Proof.PreDecode.lean ====
/-
  The precondition read back. The printed predicate is the conjunction of two "for all" tests, each an and-reduction
  of a one-bit array down to a single bit:
    • |x[b,c,l]| < +∞ at every index of the data (the word 0x7F800000 is the single-precision +∞);
    • z[b] ≤ 8192, as signed integers, at every batch row.
  An and-reduction equals 1 only if every bit that enters it is 1, so the predicate being 1 gives each test at each
  index. Over the extended reals |v| = max v (−v): for v = ⊥ or v = ⊤ this maximum is ⊤, which is not below ⊤, so a
  value whose modulus is below +∞ is a real number. The signed comparison of 32-bit words is the comparison of the
  integers they denote, and the word 8192 denotes 8192.
-/
import proofs.«120618_j69157563400282_1_alg».proof.Pre_finite_inputs
import proofs.«120618_j69157563400282_1_alg».proof.Proof.Spec
import Idealize.ShloMosaic.Lib.ReduceAll
import Idealize.ShloMosaic.PureOps.Ideal
import Idealize.ShloMosaic.Lib.ValueIdx

noncomputable section

namespace Cert.PrefixNorm.Pre

open Idealize.ShloMosaic Idealize.ShloMosaic.ValueIdx

/-- A rank-0 shape has exactly one index (there is no axis to give a coordinate on). -/
instance scalarIdx_subsingleton : Subsingleton Cert.Pre_finite_inputs.S_.Idx := ⟨fun a b => funext fun d => d.elim0⟩

/-- The single-precision word with all exponent bits set, sign clear and zero fraction denotes +∞. -/
theorem inf_word : Ideal.ofBits .f32 0x7F800000#32 = (⊤ : EReal) := by
  simp [Ideal.ofBits, Ideal.ieee]

/-- An extended real whose modulus max v (−v) is strictly below ⊤ is a real number: at v = ⊥ and at v = ⊤ the
    modulus is ⊤ itself. -/
theorem real_of_abs_lt_top (v : EReal) (h : Ideal.cmp .olt (max v (-v)) ⊤ = 1#1) : ∃ r : ℝ, v = (r : EReal) := by
  induction v using EReal.rec with
  | bot => exact absurd h (by simp [Ideal.cmp])
  | top => exact absurd h (by simp [Ideal.cmp])
  | coe r => exact ⟨r, rfl⟩

/-- The precondition decoded: every datum is a real number, and every prefix length is at most 8192. -/
theorem decode [Cert.Pre_finite_inputs.Facts] (x : FVec Ideal Cert.Pre_finite_inputs.S64x64x8192 .f32)
    (y : IVec Cert.Pre_finite_inputs.S64x8192 32) (z : IVec Cert.Pre_finite_inputs.S64 32)
    (h : Cert.Pre_finite_inputs.fn (F := Ideal) x y z = fun _ => 1#1) :
    (∀ i, ∃ r : ℝ, x i = (r : EReal)) ∧ (∀ b : Fin 64, (z (ix1 b)).toInt ≤ 8192) := by
  -- the predicate's one bit, as the conjunction of the two and-reductions
  have e := congrFun h ValueIdx.ix0
  dsimp only [Cert.Pre_finite_inputs.fn] at e
  obtain ⟨e1, e2⟩ := IntOp.andi_eq_one.1 e
  constructor
  · intro i
    -- the bit of the first reduction at index i: |x i| < (the +∞ word), pointwise by unfolding
    have hi := Host.reduce_andi_all _ _ _ _ _ e1 i
    change Ideal.cmp .olt (max (x i) (-(x i))) (Ideal.ofBits .f32 0x7F800000#32) = 1#1 at hi
    rw [inf_word] at hi
    exact real_of_abs_lt_top _ hi
  · intro b
    -- the bit of the second reduction at row b: z[b] ≤ 8192 as signed words
    have hb := Host.reduce_andi_all _ _ _ _ _ e2 (ix1 b)
    change IntOp.cmpi .sle (z (ix1 b)) 8192#32 = 1#1 at hb
    have := IntOp.cmpi_sle.1 hb
    rwa [show (8192#32 : BitVec 32).toInt = 8192 from by decide] at this

end Cert.PrefixNorm.Pre

end
-- ==== Proof.lean ====
/-
  Per-batch prefix normalisation: the kernel against its reference, over the extended reals.

  Both programs normalise each batch row x[b, ·, ·] (64 channels × 8192 positions) by the mean and the unbiased standard
  deviation of the row's PREFIX, the positions below its length z[b]:  out = (x − mean)/(√var + ε),  mean = S₁/cnt,
  cnt = 64·z[b],  S₁ the masked sum. They differ in the variance:

      kernel      var = (S₂ − cnt·mean·mean)/(cnt − 1)       S₂ the masked sum of squares, both sums accumulated over a
                                                             grid of 2 row blocks × 16 chunks in a first region, the
                                                             division and square root on the host, the normalisation in
                                                             a second region;
      reference   var = Σ ((x − mean)·mask)² /(cnt − 1)      one host program.

  For finite data and z[b] ≤ 8192 the two numerators are one number: the prefix then has exactly cnt elements (or is
  empty, and then every masked term and cnt·mean·mean vanish), so Σ(x − mean)² over the prefix expands to
  S₂ − 2·mean·S₁ + cnt·mean² = S₂ − cnt·mean². Everything else is the same expression on both sides.

  The modules: Spec (the two forms as functions of the arguments), Algebra (they agree), RefValue (the reference's result
  is the second form), ReducePieces / ReducePayload / ReduceRun (the first region's two result arrays are the masked
  sums), HostGlue (the host arithmetic between the regions), NormRegion (the second region's result array), KernelRun
  (the program's run ends with the result array at what the second region leaves), KernelValue (so the kernel's result
  is the first form), PreDecode (the precondition gives finiteness and the bound on the lengths). The three frame
  claims are the generated frame proofs (the reference's: its run with the result dropped); no idealization rule was
  applied, so `preserves` is trivial.
-/
import proofs.«120618_j69157563400282_1_alg».proof.Defs
import proofs.«120618_j69157563400282_1_alg».proof.Proof.Gen.Kernel
import proofs.«120618_j69157563400282_1_alg».proof.Proof.Gen.Kernel.Skeleton
import proofs.«120618_j69157563400282_1_alg».proof.Proof.Gen.Kernel.Launch
import proofs.«120618_j69157563400282_1_alg».proof.Proof.Gen.Kernel.Points
import proofs.«120618_j69157563400282_1_alg».proof.Proof.Gen.Kernel.Frame
import proofs.«120618_j69157563400282_1_alg».proof.Proof.Gen.KernelIdeal
import proofs.«120618_j69157563400282_1_alg».proof.Proof.Gen.KernelIdeal.Skeleton
import proofs.«120618_j69157563400282_1_alg».proof.Proof.Gen.KernelIdeal.Launch
import proofs.«120618_j69157563400282_1_alg».proof.Proof.Gen.KernelIdeal.Points
import proofs.«120618_j69157563400282_1_alg».proof.Proof.Gen.KernelIdeal.Frame
import proofs.«120618_j69157563400282_1_alg».proof.Proof.Gen.ReferenceIdeal
import proofs.«120618_j69157563400282_1_alg».proof.Proof.Gen.Pre_finite_inputs
import proofs.«120618_j69157563400282_1_alg».proof.Proof.Gen.ReferenceIdeal.Run
import proofs.«120618_j69157563400282_1_alg».proof.Proof.Gen.ReferenceIdeal.Read
import proofs.«120618_j69157563400282_1_alg».proof.Proof.KernelValue
import proofs.«120618_j69157563400282_1_alg».proof.Proof.RefValue
import proofs.«120618_j69157563400282_1_alg».proof.Proof.PreDecode
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- No idealization rule was applied. -/
theorem preserves : Cert.preserves_Kernel_KernelIdeal := trivial

/-- From memories that agree on the arguments, under the precondition, both programs end with the same normalised
    array: the kernel's result is the first form of the launched arguments, the reference's the second form of the same
    arguments, and the precondition (finite data, lengths at most 8192) makes the two forms equal. The two integer
    arguments are returned as launched by both. -/
theorem algebraic : Cert.algebraic_KernelIdeal_ReferenceIdeal := by
  intro m ρ m' ρ' hpre hagree
  refine ⟨fun c => Cert.PrefixNorm.GK (Cert.PrefixNorm.Kernel.Host.X m c) (Cert.PrefixNorm.Kernel.Host.Z m c),
    fun c => m ((c.tc : Thread Cert.KernelIdeal.nD Cert.KernelIdeal.τ).loc Cert.KernelIdeal.main_arg1),
    fun c => m ((c.tc : Thread Cert.KernelIdeal.nD Cert.KernelIdeal.τ).loc Cert.KernelIdeal.main_arg2), ?_, ?_⟩
  · exact (θ_run Cert.KernelIdeal.defs _ _).mono
      (fun r h c => ⟨(h c).1.trans (Cert.PrefixNorm.Kernel.result_eq m ρ c), (h c).2.2.1, (h c).2.2.2,
        (h c).2.1, (h c).2.2.1, (h c).2.2.2⟩)
      (Cert.PrefixNorm.Kernel.Run.run_value (F := Ideal) m ρ)
  · refine (θ_run Cert.ReferenceIdeal.defs _ _).mono (fun r h c => ?_)
      (Cert.ReferenceIdeal.Value.run (F := Ideal) m' ρ')
    obtain ⟨hx, hz⟩ := Cert.PrefixNorm.Pre.decode _ _ _ (hpre c)
    refine ⟨(h c).1.trans ?_, (h c).2.1.trans (hagree c).2.1, (h c).2.2.1.trans (hagree c).2.2,
      (h c).2.2.2.1, (h c).2.2.2.2.1, (h c).2.2.2.2.2⟩
    rw [Cert.ReferenceIdeal.Read.val_main_v33_eq, (hagree c).1, (hagree c).2.2, Cert.PrefixNorm.Ref.ref_eq]
    exact (Cert.PrefixNorm.GK_eq_GR hx hz).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
